-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S64x192 : Shape := ⟨2, ![64, 192]⟩
abbrev S2x64 : Shape := ⟨2, ![2, 64]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x192 : S_.BroadcastsInDim S64x192 (![] : Fin 0 → Fin S64x192.rank)
  reducesTo_S64x192_S_d0_1 : S64x192.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S64x192 .f32) (main_arg7 : FVec F S64 .f32) (main_arg8 : FVec F S2x64 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x192 .f32 := Host.absf main_arg6
  let main_cst_8 : FVec F S_ .f32 := constant S_ .f32 0x7F800000#32
  let main_v25 : FVec F S64x192 .f32 := broadcastInDim S64x192 ![] bcast_S_S64x192 main_cst_8
  let main_v26 : IVec S64x192 1 := cmpf .olt main_v24 main_v25
  let main_c_9 : IVec S_ 1 := constantI S_ 1 1#1
  let main_v27 : IVec S_ 1 := (fun x v => Host.reduce IntOp.andi x v reducesTo_S64x192_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S64x128 .f32) (main_arg3 : FVec F S64 .f32) (main_arg4 : FVec F S64x64 .f32) (main_arg5 : FVec F S64 .f32) (main_arg6 : FVec F S64x192 .f32) (main_arg7 : FVec F S64 .f32) (main_arg8 : FVec F S2x64 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S64x192 : Shape := ⟨2, ![64, 192]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S100000x1 : Shape := ⟨2, ![100000, 1]⟩
abbrev S1600000x64 : Shape := ⟨2, ![1600000, 64]⟩
abbrev S64x2 : Shape := ⟨2, ![64, 2]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 134
  | .vmem => 22
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64x64, .f32⟩
  | 5 => ⟨S64, .f32⟩
  | 6 => ⟨S64x192, .f32⟩
  | 7 => ⟨S64, .f32⟩
  | 8 => ⟨S2x64, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S128x64, .f32⟩
  | 32 => ⟨S64x64, .f32⟩
  | 33 => ⟨S1x64, .f32⟩
  | 34 => ⟨S1x64, .f32⟩
  | 35 => ⟨S100000x64, .f32⟩
  | 36 => ⟨S100000x1, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S100000x1, .f32⟩
  | 53 => ⟨S100000x64, .f32⟩
  | 54 => ⟨S100000x64, .f32⟩
  | 55 => ⟨S100000x64, .f32⟩
  | 56 => ⟨S100000x1, .f32⟩
  | 57 => ⟨S100000x64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000x1, .f32⟩
  | 73 => ⟨S100000x64, .f32⟩
  | 74 => ⟨S100000x64, .f32⟩
  | 75 => ⟨S100000x64, .f32⟩
  | 76 => ⟨S64x64, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S_, .f32⟩
  | 88 => ⟨S64x64, .f32⟩
  | 89 => ⟨S64x64, .f32⟩
  | 90 => ⟨S64x64, .f32⟩
  | 91 => ⟨S64x64, .f32⟩
  | 92 => ⟨S_, .f32⟩
  | 93 => ⟨S64x64, .f32⟩
  | 94 => ⟨S64x64, .f32⟩
  | 95 => ⟨S64x64, .f32⟩
  | 96 => ⟨S64x64, .f32⟩
  | 97 => ⟨S_, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S64x64, .f32⟩
  | 108 => ⟨S64x64, .f32⟩
  | 109 => ⟨S_, .f32⟩
  | 110 => ⟨S64x64, .f32⟩
  | 111 => ⟨S64x64, .f32⟩
  | 112 => ⟨S64x64, .f32⟩
  | 113 => ⟨S64x64, .f32⟩
  | 114 => ⟨S_, .f32⟩
  | 115 => ⟨S64x64, .f32⟩
  | 116 => ⟨S64x64, .f32⟩
  | 117 => ⟨S_, .f32⟩
  | 118 => ⟨S64x64, .f32⟩
  | 119 => ⟨S64x64, .f32⟩
  | 120 => ⟨S64x64, .f32⟩
  | 121 => ⟨S_, .f32⟩
  | 122 => ⟨S64x64, .f32⟩
  | 123 => ⟨S64x64, .f32⟩
  | 124 => ⟨S64x64, .f32⟩
  | 125 => ⟨S64x64, .f32⟩
  | 126 => ⟨S_, .f32⟩
  | 127 => ⟨S64x64, .f32⟩
  | _ => ⟨S100000x128, .f32⟩

abbrev hbmTy0_1 (i : Nat) : BufTy := match i % 128 with
  | 0 => ⟨S64x64, .f32⟩
  | 1 => ⟨S64x64, .f32⟩
  | 2 => ⟨S1x64, .f32⟩
  | 3 => ⟨S64x2, .f32⟩
  | 4 => ⟨S1x2, .f32⟩
  | 5 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S64x2, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_cst_18 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S64x128_S128x64_1_0 : S64x128.Transposes [1, 0] S128x64
  transposes_S64x64_S64x64_1_0 : S64x64.Transposes [1, 0] S64x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S64x192_S64x64_0_0 : S64x192.Slices ![0, 0] S64x64
  slices_S64x192_S64x64_0_64 : S64x192.Slices ![0, 64] S64x64
  slices_S64x192_S64x64_0_128 : S64x192.Slices ![0, 128] S64x64
  bcast_S_S64x64 : S_.BroadcastsInDim S64x64 (![] : Fin 0 → Fin S64x64.rank)
  transposes_S2x64_S64x2_1_0 : S2x64.Transposes [1, 0] S64x2
  shapeCasts_S2_S1x2 : S2.ShapeCasts S1x2
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2.size a ≤ S64x2.size a
  hwx1_7 : ∀ i : grid1.Coords, EltTy.bits .f32 = 32 ∨ (Rect.block (s := S64x2) S64x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x2.size a ≤ S100000x2.size a
  hwx1_9 : ∀ i : grid1.Coords, EltTy.bits .f32 = 32 ∨ (Rect.block (s := S100000x2) S5000x2.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v81) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v95) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v96) S64x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v97) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v98) S5000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S64x192 : Shape := ⟨2, ![64, 192]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S100000x192 : Shape := ⟨2, ![100000, 192]⟩
abbrev S192x64 : Shape := ⟨2, ![192, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 215
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64x64, .f32⟩
  | 5 => ⟨S64, .f32⟩
  | 6 => ⟨S64x192, .f32⟩
  | 7 => ⟨S64, .f32⟩
  | 8 => ⟨S2x64, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S128x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S64x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S1600000x1, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S1600000x64, .f32⟩
  | 125 => ⟨S1600000x64, .f32⟩
  | 126 => ⟨S_, .f32⟩
  | 127 => ⟨S100000x64, .f32⟩
  | _ => ⟨S100000x128, .f32⟩

abbrev hbmTy0_1 (i : Nat) : BufTy := match i % 128 with
  | 0 => ⟨S1600000x1, .i32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S1600000x1, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x64, .f32⟩
  | 18 => ⟨S1600000x64, .f32⟩
  | 19 => ⟨S_, .f32⟩
  | 20 => ⟨S100000x64, .f32⟩
  | 21 => ⟨S1600000x1, .i32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x64, .f32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S100000x192, .f32⟩
  | 74 => ⟨S192x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S64x2, .f32⟩
  | 83 => ⟨S100000x2, .f32⟩
  | 84 => ⟨S1x2, .f32⟩
  | 85 => ⟨S100000x2, .f32⟩
  | 86 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_17 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_21 : Ref sig .tc := ⟨.hbm, 136, rfl⟩
abbrev main_v97 : Ref sig .tc := ⟨.hbm, 137, rfl⟩
abbrev main_v98 : Ref sig .tc := ⟨.hbm, 138, rfl⟩
abbrev main_c_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_23 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_24 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_25 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_26 : Ref sig .tc := ⟨.hbm, 160, rfl⟩
abbrev main_v116 : Ref sig .tc := ⟨.hbm, 161, rfl⟩
abbrev main_v117 : Ref sig .tc := ⟨.hbm, 162, rfl⟩
abbrev main_c_27 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_28 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_29 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_30 : Ref sig .tc := ⟨.hbm, 181, rfl⟩
abbrev main_v133 : Ref sig .tc := ⟨.hbm, 182, rfl⟩
abbrev main_v134 : Ref sig .tc := ⟨.hbm, 183, rfl⟩
abbrev main_c_31 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_32 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_33 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_call3_cst : Ref sig .tc := ⟨.hbm, 207, rfl⟩
abbrev main_call3_v0 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S1600000x1_S1600000x64_0_1 : S1600000x1.BroadcastsInDim S1600000x64 (![0, 1] : Fin 2 → Fin S1600000x64.rank)
  concatenates_S100000x64_S100000x64_S100000x64_S100000x192_d1 : Shape.Concatenates [S100000x64, S100000x64, S100000x64] S100000x192 1
  transposes_S64x192_S192x64_1_0 : S64x192.Transposes [1, 0] S192x64
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x64_S100000x64_1_0_0_1_n_n_wf : DotDims.WF S100000x192 S192x64 S100000x64 [1] [0] [0] [1] [] []
  dot_S100000x64_S64x2_S100000x2_1_0_0_1_n_n_wf : DotDims.WF S100000x64 S64x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result NAMED. The kernel's @main is two grid regions among stretches of host
  operations; along the run every buffer that is not scoped to a region holds, at each boundary, the contents the
  operations so far leave there. At the return the result buffer therefore holds what the second region's write-backs
  leave in its output array, computed from the contents at that region's entry; the argument arrays are as launched.
-/
import proofs.«163378_j7138235646046_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; at the end the result buffer holds the
    contents the boundary fold gives it after the second region, and each argument array is as launched. -/
theorem run_out : θ_run defs (onTc (τ := τ) (main (F := F))) ⟨m, fun _ => 0, ρ⟩ (fun r => ∀ c : Dev nD,
      r.2.mem ((c.tc : Thread nD τ).loc main_v98) = W6 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v98 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.Region0.lean ====
/-
  THE FIRST REGION'S RESULT AS ONE ARRAY.

  The first grid region runs the two input layers on 20 blocks of 5000 rows. At a grid point `t` the body loads rows
  `5000 t … 5000 t + 4999` of the features and the whole weight and bias arrays, and stores, at row `p` and column `q` of its
  block, `max (∑ k, max (∑ j, x (p, j) · A (j, k) + b k) 0 · B (k, q) + b' q) 0`: each matrix product is a plain sum over the
  contracted axis, a change of float format is the identity on the extended reals. The blocks tile the rows, so after the
  region the output array is that expression of the whole arrays at every `(n, q)`: the function `G` below, whatever the
  contents `V` the region finds in its windows' arrays.
-/
import proofs.«163378_j7138235646046_2_alg».proof.Proof.Gen.KernelIdeal.Frame
import proofs.«163378_j7138235646046_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat Cfg Window)

/-- One layer of a block: a product into a zero accumulator, plus a bias row broadcast over the rows, rectified. -/
theorem layer_apply {R K : Nat} (d : DotDims ⟨2, ![R, K]⟩ ⟨2, ![K, 64]⟩ ⟨2, ![R, 64]⟩) (hd : d = DotDims.plain R K 64)
    (x : FVec Ideal ⟨2, ![R, K]⟩ .f32) (w : FVec Ideal ⟨2, ![K, 64]⟩ .f32) (b : FVec Ideal ⟨2, ![1, 64]⟩ .f32)
    (hb : (⟨2, ![1, 64]⟩ : Shape).Broadcasts ⟨2, ![R, 64]⟩) (p : Fin R) (q : Fin 64) :
    maximumf (addf (matmul d none (truncf .bf16 x bitsLt_bf16_f32) (truncf .bf16 w bitsLt_bf16_f32)
        (constant (⟨2, ![R, 64]⟩ : Shape) .f32 0x00000000#32)) (broadcastTo ⟨2, ![R, 64]⟩ b hb))
      (broadcast (⟨2, ![R, 64]⟩ : Shape) (FloatOps.ofBits .f32 0x00000000#32)) (ix2 p q)
      = max ((∑ k : Fin K, x (ix2 p k) * w (ix2 k q)) + b (ix2 0 q)) 0 := by
  show max (matmul d none (truncf .bf16 x bitsLt_bf16_f32) (truncf .bf16 w bitsLt_bf16_f32)
        (constant (⟨2, ![R, 64]⟩ : Shape) .f32 0x00000000#32) (ix2 p q) + broadcastTo ⟨2, ![R, 64]⟩ b hb (ix2 p q))
      (Ideal.ofBits .f32 0x00000000#32) = _
  rw [Ideal.ofBits_zero_f32, broadcastTo_1b_ab_apply, Idealize.PlainDot.matmul_zero_apply d hd]
  rfl

/-- The body's stored value at row `p`, column `q` of a block: both layers as plain sums over the loaded blocks. -/
theorem pay_apply (x0 : Vec Ideal S5000x128 .f32) (x1 : Vec Ideal S128x64 .f32) (x2 : Vec Ideal S1x64 .f32)
    (x3 : Vec Ideal S64x64 .f32) (x4 : Vec Ideal S1x64 .f32) (p : Fin 5000) (q : Fin 64) :
    k0_pay1 x0 x1 x2 x3 x4 (ix2 p q)
      = max ((∑ k : Fin 64, max ((∑ j : Fin 128, x0 (ix2 p j) * x1 (ix2 j k)) + x2 (ix2 0 k)) 0 * x3 (ix2 k q)) + x4 (ix2 0 q)) 0 := by
  unfold k0_pay1
  simp only [shapeCast_self]
  refine (layer_apply dot_S5000x64_S64x64_S5000x64_1_0_0_1_n_n rfl _ x3 x4 broadcasts_S1x64_S5000x64 p q).trans ?_
  refine congrArg (fun s => max (s + x4 (ix2 0 q)) 0) (Finset.sum_congr rfl fun k _ => ?_)
  exact congrArg (· * x3 (ix2 k q)) (layer_apply dot_S5000x128_S128x64_S5000x64_1_0_0_1_n_n rfl x0 x1 x2 broadcasts_S1x64_S5000x64 p k)

variable (V : (c : Dev nD) → (b : Ref sig .tc) → Buf (Elt Ideal) ((c : Thread nD τ).loc b))

/-- The first region's result as one function of the arrays its windows stage: row `n`, column `q`. -/
def G (X : S100000x128.Idx → EReal) (A : S128x64.Idx → EReal) (b : S1x64.Idx → EReal) (B : S64x64.Idx → EReal)
    (b' : S1x64.Idx → EReal) : S100000x64.Idx → EReal :=
  fun i => max ((∑ k : Fin 64, max ((∑ j : Fin 128, X (ix2 (i 0) j) * A (ix2 j k)) + b (ix2 0 k)) 0 * B (ix2 k (i 1)))
    + b' (ix2 0 (i 1))) 0

theorem hz : (![0, 0] : Fin 2 → Nat) = fun _ => 0 := funext fun a => by fin_cases a <;> rfl

/-- The printed index maps over the grid: the row-blocked windows sit at block `(t, 0)`, the weight windows at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := by
  have h : cfg0.N = 20 := N_0
  have := t.isLt
  omega

/-- Row `p` of block `t` of the input features is row `5000 t + p` of the array. -/
theorem blk0 (c : Dev nD) (t : Fin cfg0.N) (p : Fin 5000) (h : t.val * 5000 + p.val < 100000) (j : Fin 128) :
    iblk0 V c 0 t (ix2 p j) = V c main_arg0 (ix2 ⟨t.val * 5000 + p.val, h⟩ j) := by
  obtain ⟨e0, e1, -⟩ := idx_facts t
  show V c main_arg0 (((cfg0.win 0).blk t).view.emb (ix2 p j)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * j.val = j.val; omega

/-- The weight and bias windows hold their whole arrays at every point. -/
theorem blk1 (c : Dev nD) (t : Fin cfg0.N) (j : Fin 128) (k : Fin 64) : iblk0 V c 1 t (ix2 j k) = V c main_v14 (ix2 j k) := by
  obtain ⟨-, -, e0, e1, -⟩ := idx_facts t
  show V c main_v14 (((cfg0.win 1).blk t).view.emb (ix2 j k)) = _
  refine congrArg (V c main_v14) (funext fun a => Fin.ext ?_)
  match a with
  | ⟨0, _⟩ => show win0_1.index t (0 : Fin 2) * 128 + 1 * j.val = j.val; omega
  | ⟨1, _⟩ => show win0_1.index t (1 : Fin 2) * 64 + 1 * k.val = k.val; omega
theorem blk2 (c : Dev nD) (t : Fin cfg0.N) (u : Fin 1) (k : Fin 64) : iblk0 V c 2 t (ix2 u k) = V c main_v16 (ix2 u k) := by
  obtain ⟨-, -, -, -, e0, e1, -⟩ := idx_facts t
  show V c main_v16 (((cfg0.win 2).blk t).view.emb (ix2 u k)) = _
  refine congrArg (V c main_v16) (funext fun a => Fin.ext ?_)
  match a with
  | ⟨0, _⟩ => show win0_2.index t (0 : Fin 2) * 1 + 1 * u.val = u.val; omega
  | ⟨1, _⟩ => show win0_2.index t (1 : Fin 2) * 64 + 1 * k.val = k.val; omega
theorem blk3 (c : Dev nD) (t : Fin cfg0.N) (j : Fin 64) (k : Fin 64) : iblk0 V c 3 t (ix2 j k) = V c main_v15 (ix2 j k) := by
  obtain ⟨-, -, -, -, -, -, e0, e1, -⟩ := idx_facts t
  show V c main_v15 (((cfg0.win 3).blk t).view.emb (ix2 j k)) = _
  refine congrArg (V c main_v15) (funext fun a => Fin.ext ?_)
  match a with
  | ⟨0, _⟩ => show win0_3.index t (0 : Fin 2) * 64 + 1 * j.val = j.val; omega
  | ⟨1, _⟩ => show win0_3.index t (1 : Fin 2) * 64 + 1 * k.val = k.val; omega
theorem blk4 (c : Dev nD) (t : Fin cfg0.N) (u : Fin 1) (k : Fin 64) : iblk0 V c 4 t (ix2 u k) = V c main_v17 (ix2 u k) := by
  obtain ⟨-, -, -, -, -, -, -, -, e0, e1, -⟩ := idx_facts t
  show V c main_v17 (((cfg0.win 4).blk t).view.emb (ix2 u k)) = _
  refine congrArg (V c main_v17) (funext fun a => Fin.ext ?_)
  match a with
  | ⟨0, _⟩ => show win0_4.index t (0 : Fin 2) * 1 + 1 * u.val = u.val; omega
  | ⟨1, _⟩ => show win0_4.index t (1 : Fin 2) * 64 + 1 * k.val = k.val; omega

/-- Position `(p, q)` of the output's block `t` is position `(5000 t + p, q)` of the array. -/
theorem emb5 (t : Fin cfg0.N) (p : Fin 5000) (h : t.val * 5000 + p.val < 100000) (q : Fin 64) :
    ((cfg0.win 5).blk t).view.emb (ix2 p q) = ix2 ⟨t.val * 5000 + p.val, h⟩ q := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 64 + 1 * q.val = q.val; omega

/-- WHAT POINT `t` WRITES BACK is block `t` of `G` of the arrays as the region finds them. -/
theorem flushed_eq (c : Dev nD) (t : Fin cfg0.N) :
    (dat0 V c).flushed 5 t = ((cfg0.win 5).blk t).view.read (Elt Ideal)
      (G (V c main_arg0) (V c main_v14) (V c main_v16) (V c main_v15) (V c main_v17)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz,
    View.ld_unit_zero (S := S64x64) hz]
  have key : ∀ y : S5000x64.Idx,
      k0_pay1 (iblk0 V c 0 t) (iblk0 V c 1 t) (iblk0 V c 2 t) (iblk0 V c 3 t) (iblk0 V c 4 t) y
        = G (V c main_arg0) (V c main_v14) (V c main_v16) (V c main_v15) (V c main_v17) (((cfg0.win 5).blk t).view.emb y) := by
    intro y
    obtain ⟨p, q, rfl⟩ : ∃ (p : Fin 5000) (q : Fin 64), y = ix2 p q := ⟨y 0, y 1, eq_ix2 y⟩
    have ht := t_lt t
    have hb : t.val * 5000 + p.val < 100000 := by have := p.isLt; omega
    rw [pay_apply, emb5 t p hb q]
    unfold G
    simp only [blk0 V c t p hb, blk1 V c t, blk2 V c t, blk3 V c t, blk4 V c t]
  funext y
  exact key y

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v18).slice (win0_5.rect t)).set ↔ _
  rw [View.set_slice_whole, Rect.mem_set_unit]
  exact Iff.rfl

/-- Every row of the array is in the block of the point `row / 5000`, which writes back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by omega⟩, flush0_5 _, ?_⟩
  rw [mem_blk]
  obtain ⟨-, -, -, -, -, -, -, -, -, -, e0, e1⟩ := idx_facts ⟨(i 0).val / 5000, by omega⟩
  intro a
  match a with
  | ⟨0, _⟩ =>
    show win0_5.index ⟨(i 0).val / 5000, _⟩ (0 : Fin 2) * 5000 ≤ (i 0).val
      ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 64 ≤ (i 1).val
      ∧ (i 1).val < win0_5.index ⟨(i 0).val / 5000, _⟩ (1 : Fin 2) * 64 + 64
    rw [e1]; omega

/-- THE ARRAY after the region: `G` of the arrays as the region finds them. -/
theorem final (c : Dev nD) :
    (dat0 V c).arrAt 5 cfg0.N = G (V c main_arg0) (V c main_v14) (V c main_v16) (V c main_v15) (V c main_v17) :=
  (dat0 V c).arrAt_eq_of_cover 5 (G (V c main_arg0) (V c main_v14) (V c main_v16) (V c main_v15) (V c main_v17))
    (fun t _ => flushed_eq V c t) cover

end Cert.KernelIdeal.Region0
end
-- ==== Proof.KVal0.lean ====
/-
  WHAT THE KERNEL'S HOST OPERATIONS LEAVE IN THE BUFFERS THE REGIONS READ, up to the first region's exit.

  Before the first region the host operations cut the two rows of the edge list out of the index argument, count each
  node's edges by a scatter-add of ones, turn the count `d` into the weight `1 / sqrt d` (zero where the count is zero),
  and re-lay the first two layers' parameters (the weights transposed, the biases as one-row matrices). The first region then
  leaves the two input layers' result in its output array; nothing else is touched.
-/
import proofs.«163378_j7138235646046_2_alg».proof.Proof.Gen.KernelIdeal.Frame
import proofs.«163378_j7138235646046_2_alg».proof.Proof.Region0
import Idealize.ShloMosaic.Lib.StableHlo.Run
import Idealize.ShloMosaic.PureOps.Ideal.Laws

set_option maxRecDepth 16384

noncomputable section

namespace Cert.KernelIdeal.HostRun

open Cert.KernelIdeal Cert.KernelIdeal.Gen Idealize.ShloMosaic Idealize.ShloMosaic.TcCoe Idealize.SL.Sem
open Idealize.ShloMosaic.StableHlo

/-! ## The graph terms, as functions of the edge list -/

/-- The edges' first row (the node each edge's value is summed into). -/
def rowK (x1 : IVec S2x1600000 32) : IVec S1600000 32 :=
  shapeCast S1600000 (extractStridedSlice S1x1600000 ![0, 0] x1 slices_S2x1600000_S1x1600000_0_0) shapeCasts_S1x1600000_S1600000
/-- The edges' second row (the node each edge's value is read from). -/
def colK (x1 : IVec S2x1600000 32) : IVec S1600000 32 :=
  shapeCast S1600000 (extractStridedSlice S1x1600000 ![1, 0] x1 slices_S2x1600000_S1x1600000_1_0) shapeCasts_S1x1600000_S1600000
/-- Each node's edge count: ones summed by first row. -/
def degK (x1 : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (rowK x1))
    (broadcastInDim S1600000 ![] bcast_S_S1600000 (constant S_ .f32 0x3F800000#32))
/-- Each node's weight: `1 / sqrt count` where the count is positive, else zero. -/
def dinvK (x1 : IVec S2x1600000 32) : FVec Ideal S100000 .f32 :=
  select (cmpf .ogt (degK x1) (broadcastInDim S100000 ![] bcast_S_S100000 (constant S_ .f32 0x00000000#32)))
    (Host.divf (broadcastInDim S100000 ![] bcast_S_S100000 (constant S_ .f32 0x3F800000#32)) (Host.sqrt (degK x1)))
    (broadcastInDim S100000 ![] bcast_S_S100000 (id (constant S_ .f32 0x00000000#32)))

/-- One Laplacian step as the kernel's host operations spell it: `f − D · segment_sum ((D · f)[col], row)`, `D` the node weights
    broadcast over the columns. -/
def lapK (dinv : FVec Ideal S100000 .f32) (row col : IVec S1600000 32) (f : FVec Ideal S100000x64 .f32) :
    FVec Ideal S100000x64 .f32 :=
  subf f (mulf
    (broadcastInDim S100000x64 ![0, 1] bcast_S100000x1_S100000x64_0_1 (broadcastInDim S100000x1 ![0] bcast_S100000_S100000x1_0 dinv))
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 row)
      (Host.gather gather_S100000x64_S1600000x1_S1600000x64_1_0_n_n_0_1_164
        (mulf (broadcastInDim S100000x64 ![0, 1] bcast_S100000x1_S100000x64_0_1
          (broadcastInDim S100000x1 ![0] bcast_S100000_S100000x1_0 dinv)) f)
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))))

variable (m : (ℓ : Loc nD τ sig) → Buf (Elt Ideal) ℓ) (ρ : Dev nD → PrngReg)

/-! ## At the first region's entry -/

set_option maxHeartbeats 8000000 in
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
set_option maxHeartbeats 8000000 in
theorem W3_v14 (c : Dev nD) : W3 m ρ c (Proc.devRef .tc main_v14)
    = transpose S128x64 [1, 0] (m ((c : Thread nD τ).loc main_arg2)) transposes_S64x128_S128x64_1_0 := by
  show StableHlo.after hostOps0_2 (StableHlo.after hostOps0_1 (StableHlo.after hostOps0 (W0 m ρ c))) (Proc.devRef .tc main_v14) = _
  after_results_simp <;> rfl
set_option maxHeartbeats 8000000 in
theorem W3_v15 (c : Dev nD) : W3 m ρ c (Proc.devRef .tc main_v15)
    = transpose S64x64 [1, 0] (m ((c : Thread nD τ).loc main_arg4)) transposes_S64x64_S64x64_1_0 := by
  show StableHlo.after hostOps0_2 (StableHlo.after hostOps0_1 (StableHlo.after hostOps0 (W0 m ρ c))) (Proc.devRef .tc main_v15) = _
  after_results_simp <;> rfl
set_option maxHeartbeats 8000000 in
theorem W3_v16 (c : Dev nD) : W3 m ρ c (Proc.devRef .tc main_v16)
    = shapeCast S1x64 (m ((c : Thread nD τ).loc main_arg3)) shapeCasts_S64_S1x64 := by
  show StableHlo.after hostOps0_2 (StableHlo.after hostOps0_1 (StableHlo.after hostOps0 (W0 m ρ c))) (Proc.devRef .tc main_v16) = _
  after_results_simp <;> rfl
set_option maxHeartbeats 8000000 in
theorem W3_v17 (c : Dev nD) : W3 m ρ c (Proc.devRef .tc main_v17)
    = shapeCast S1x64 (m ((c : Thread nD τ).loc main_arg5)) shapeCasts_S64_S1x64 := by
  show StableHlo.after hostOps0_2 (StableHlo.after hostOps0_1 (StableHlo.after hostOps0 (W0 m ρ c))) (Proc.devRef .tc main_v17) = _
  after_results_simp <;> rfl
set_option maxHeartbeats 8000000 in
theorem W3_v1 (c : Dev nD) : W3 m ρ c (Proc.devRef .tc main_v1) = rowK (m ((c : Thread nD τ).loc main_arg1)) := by
  show StableHlo.after hostOps0_2 (StableHlo.after hostOps0_1 (StableHlo.after hostOps0 (W0 m ρ c))) (Proc.devRef .tc main_v1) = _
  after_results_simp <;> rfl
set_option maxHeartbeats 8000000 in
theorem W3_v3 (c : Dev nD) : W3 m ρ c (Proc.devRef .tc main_v3) = colK (m ((c : Thread nD τ).loc main_arg1)) := by
  show StableHlo.after hostOps0_2 (StableHlo.after hostOps0_1 (StableHlo.after hostOps0 (W0 m ρ c))) (Proc.devRef .tc main_v3) = _
  after_results_simp <;> rfl
/-! ### The node weights, read level by level: the plain operations first, then the call's three operations -/

set_option maxHeartbeats 8000000 in
theorem W1_v9 (c : Dev nD) : W1 m ρ c (Proc.devRef .tc main_v9)
    = cmpf .ogt (degK (m ((c : Thread nD τ).loc main_arg1))) (broadcastInDim S100000 ![] bcast_S_S100000 (constant S_ .f32 0x00000000#32)) := by
  show StableHlo.after hostOps0 (W0 m ρ c) (Proc.devRef .tc main_v9) = _
  after_results_simp <;> rfl
set_option maxHeartbeats 8000000 in
theorem W1_v12 (c : Dev nD) : W1 m ρ c (Proc.devRef .tc main_v12)
    = Host.divf (broadcastInDim S100000 ![] bcast_S_S100000 (constant S_ .f32 0x3F800000#32))
        (Host.sqrt (degK (m ((c : Thread nD τ).loc main_arg1)))) := by
  show StableHlo.after hostOps0 (W0 m ρ c) (Proc.devRef .tc main_v12) = _
  after_results_simp <;> rfl
set_option maxHeartbeats 8000000 in
theorem W1_cst3 (c : Dev nD) : W1 m ρ c (Proc.devRef .tc main_cst_3) = constant (F := Ideal) S_ .f32 0x00000000#32 := by
  show StableHlo.after hostOps0 (W0 m ρ c) (Proc.devRef .tc main_cst_3) = _
  after_results_simp <;> rfl

/-- Contents carried to and from a buffer whose type is the value's type by computation are the contents themselves. -/
theorem toBuf_v13 (v : (⟨S100000, .f32⟩ : BufTy).Contents (Elt Ideal)) :
    (TRef.of main_v13 : TRef sig ⟨S100000, .f32⟩).toBuf v = v := rfl
theorem ofBuf_v9 (v : main_v9.ty.Contents (Elt Ideal)) : (TRef.of main_v9 : TRef sig ⟨S100000, .i1⟩).ofBuf v = v := rfl
theorem ofBuf_v12 (v : main_v12.ty.Contents (Elt Ideal)) : (TRef.of main_v12 : TRef sig ⟨S100000, .f32⟩).ofBuf v = v := rfl
theorem ofBuf_cst3 (v : main_cst_3.ty.Contents (Elt Ideal)) : (TRef.of main_cst_3 : TRef sig ⟨S_, .f32⟩).ofBuf v = v := rfl
theorem ofBuf_toBuf {T : BufTy} (x : TRef sig T) (v : T.Contents (Elt Ideal)) : x.ofBuf (x.toBuf v) = v := by
  obtain ⟨r, rfl, _, _⟩ := x; rfl

set_option maxHeartbeats 8000000 in
theorem W2_v13 (c : Dev nD) : W2 m ρ c (Proc.devRef .tc main_v13)
    = select (W1 m ρ c (Proc.devRef .tc main_v9)) (W1 m ρ c (Proc.devRef .tc main_v12))
        (broadcastInDim S100000 ![] bcast_S_S100000 (id (W1 m ρ c (Proc.devRef .tc main_cst_3)))) := by
  show StableHlo.after hostOps0_1 (W1 m ρ c) (Proc.devRef .tc main_v13) = _
  after_results_simp
  exact (toBuf_v13 _).trans (congr (congr (congrArg select (ofBuf_v9 _)) (ofBuf_v12 _))
    ((ofBuf_toBuf _ _).trans (congrArg (broadcastInDim S100000 ![] bcast_S_S100000)
      ((ofBuf_toBuf _ _).trans (congrArg id (ofBuf_cst3 _))))))

set_option maxHeartbeats 8000000 in
theorem W3_v13 (c : Dev nD) : W3 m ρ c (Proc.devRef .tc main_v13) = dinvK (m ((c : Thread nD τ).loc main_arg1)) := by
  have h : W3 m ρ c (Proc.devRef .tc main_v13) = W2 m ρ c (Proc.devRef .tc main_v13) := by
    show StableHlo.after hostOps0_2 (W2 m ρ c) (Proc.devRef .tc main_v13) = _
    after_results_simp
  rw [h, W2_v13, W1_v9, W1_v12, W1_cst3]
  rfl
set_option maxHeartbeats 8000000 in
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp
set_option maxHeartbeats 8000000 in
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp
set_option maxHeartbeats 8000000 in
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp
set_option maxHeartbeats 8000000 in
theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp

/-! ## At the first region's exit -/

/-- The first region's output array: the two input layers of the arguments, the parameters re-laid. -/
theorem W4_v18 (c : Dev nD) : W4 m ρ c (Proc.devRef .tc main_v18)
    = Region0.G (m ((c : Thread nD τ).loc main_arg0))
        (transpose S128x64 [1, 0] (m ((c : Thread nD τ).loc main_arg2)) transposes_S64x128_S128x64_1_0)
        (shapeCast S1x64 (m ((c : Thread nD τ).loc main_arg3)) shapeCasts_S64_S1x64)
        (transpose S64x64 [1, 0] (m ((c : Thread nD τ).loc main_arg4)) transposes_S64x64_S64x64_1_0)
        (shapeCast S1x64 (m ((c : Thread nD τ).loc main_arg5)) shapeCasts_S64_S1x64) := by
  refine (W4_arr m ρ c 5).trans ((Region0.final (V3 m ρ) c).trans ?_)
  show Region0.G (W3 m ρ c (Proc.devRef .tc main_arg0)) (W3 m ρ c (Proc.devRef .tc main_v14)) (W3 m ρ c (Proc.devRef .tc main_v16))
    (W3 m ρ c (Proc.devRef .tc main_v15)) (W3 m ρ c (Proc.devRef .tc main_v17)) = _
  rw [W3_arg0, W3_v14, W3_v15, W3_v16, W3_v17]

theorem W4_v13 (c : Dev nD) : W4 m ρ c (Proc.devRef .tc main_v13) = dinvK (m ((c : Thread nD τ).loc main_arg1)) :=
  (W4_of_ne m ρ c main_v13 (by decide)).trans (W3_v13 m ρ c)
theorem W4_v1 (c : Dev nD) : W4 m ρ c (Proc.devRef .tc main_v1) = rowK (m ((c : Thread nD τ).loc main_arg1)) :=
  (W4_of_ne m ρ c main_v1 (by decide)).trans (W3_v1 m ρ c)
theorem W4_v3 (c : Dev nD) : W4 m ρ c (Proc.devRef .tc main_v3) = colK (m ((c : Thread nD τ).loc main_arg1)) :=
  (W4_of_ne m ρ c main_v3 (by decide)).trans (W3_v3 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)

end Cert.KernelIdeal.HostRun

end
-- ==== Proof.Region1.lean ====
/-
  THE SECOND REGION'S RESULT AS ONE ARRAY.

  The second grid region runs the output head on 20 blocks of 5000 rows. At a grid point `t` the body loads rows
  `5000 t … 5000 t + 4999` of the three feature arrays and the whole folded weights, biases and last weight, and stores, at row
  `p` and column `o` of its block, `∑ k, max (((∑ c, f0 (p, c) · A0 (c, k)) + ∑ c, f1 (p, c) · A1 (c, k)) + ∑ c, f2 (p, c) · A2 (c, k)
  + b3 k) 0 · W (k, o) + b4 o`: each matrix product into a zero accumulator is a plain sum over the contracted axis, a change
  of float format is the identity on the extended reals. The blocks tile the rows, so after the region the output array is that
  expression of the whole arrays at every `(n, o)`: the function `G` below, whatever the contents `V` the region finds in its
  windows' arrays.
-/
import proofs.«163378_j7138235646046_2_alg».proof.Proof.Gen.KernelIdeal.Frame
import proofs.«163378_j7138235646046_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat Cfg Window)

/-- The body's stored value at row `p`, column `o` of a block: three products into zero accumulators added left to right,
    the bias row, the rectifier, the last product and its bias, all as plain sums over the loaded blocks. -/
theorem pay_apply (x0 x1 x2 : Vec Ideal S5000x64 .f32) (x3 x4 x5 : Vec Ideal S64x64 .f32) (x6 : Vec Ideal S1x64 .f32)
    (x7 : Vec Ideal S64x2 .f32) (x8 : Vec Ideal S1x2 .f32) (p : Fin 5000) (o : Fin 2) :
    k1_pay1 (k1_pay2 x0 x1 x2 x3 x4 x5 x6 x7) (k1_pay3 x8) (ix2 p o)
      = (∑ k : Fin 64, max ((((∑ c : Fin 64, x0 (ix2 p c) * x3 (ix2 c k)) + ∑ c : Fin 64, x1 (ix2 p c) * x4 (ix2 c k))
          + ∑ c : Fin 64, x2 (ix2 p c) * x5 (ix2 c k)) + x6 (ix2 0 k)) 0 * x7 (ix2 k o)) + x8 (ix2 0 o) := by
  unfold k1_pay1 k1_pay2 k1_pay3
  simp only [shapeCast_self]
  rw [addf_apply, broadcastTo_1b_ab_apply, Idealize.PlainDot.matmul_zero_apply dot_S5000x64_S64x2_S5000x2_1_0_0_1_n_n rfl]
  refine congrArg (· + x8 (ix2 0 o)) (Finset.sum_congr rfl fun k _ => ?_)
  refine congrArg (· * x7 (ix2 k o)) ?_
  rw [truncf_apply, maximumf_apply, addf_apply, addf_apply, addf_apply, broadcastTo_1b_ab_apply, broadcast_apply,
    Idealize.PlainDot.matmul_zero_apply dot_S5000x64_S64x64_S5000x64_1_0_0_1_n_n rfl,
    Idealize.PlainDot.matmul_zero_apply dot_S5000x64_S64x64_S5000x64_1_0_0_1_n_n rfl,
    Idealize.PlainDot.matmul_zero_apply dot_S5000x64_S64x64_S5000x64_1_0_0_1_n_n rfl]
  show max _ (Ideal.ofBits .f32 0x00000000#32) = _
  rw [Ideal.ofBits_zero_f32]
  rfl

variable (V : (c : Dev nD) → (b : Ref sig .tc) → Buf (Elt Ideal) ((c : Thread nD τ).loc b))

/-- The second region's result as one function of the arrays its windows stage: row `n`, column `o`. -/
def G (f0 f1 f2 : S100000x64.Idx → EReal) (A0 A1 A2 : S64x64.Idx → EReal) (b3 : S1x64.Idx → EReal) (W : S64x2.Idx → EReal)
    (b4 : S1x2.Idx → EReal) : S100000x2.Idx → EReal :=
  fun i => (∑ k : Fin 64, max ((((∑ c : Fin 64, f0 (ix2 (i 0) c) * A0 (ix2 c k)) + ∑ c : Fin 64, f1 (ix2 (i 0) c) * A1 (ix2 c k))
      + ∑ c : Fin 64, f2 (ix2 (i 0) c) * A2 (ix2 c k)) + b3 (ix2 0 k)) 0 * W (ix2 k (i 1))) + b4 (ix2 0 (i 1))

theorem hz : (![0, 0] : Fin 2 → Nat) = fun _ => 0 := funext fun a => by fin_cases a <;> rfl

/-- The printed index maps over the grid: the row-blocked windows sit at block `(t, 0)`, the weight windows at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem t_lt (t : Fin cfg1.N) : t.val < 20 := by
  have h : cfg1.N = 20 := N_1
  have := t.isLt
  omega

/-- Row `p` of block `t` of a feature array is row `5000 t + p` of the array. -/
theorem blk0 (c : Dev nD) (t : Fin cfg1.N) (p : Fin 5000) (h : t.val * 5000 + p.val < 100000) (j : Fin 64) :
    iblk1 V c 0 t (ix2 p j) = V c main_v18 (ix2 ⟨t.val * 5000 + p.val, h⟩ j) := by
  have e := idx_facts t
  show V c main_v18 (((cfg1.win 0).blk t).view.emb (ix2 p j)) = _
  refine congrArg (V c main_v18) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * j.val = j.val; omega
theorem blk1 (c : Dev nD) (t : Fin cfg1.N) (p : Fin 5000) (h : t.val * 5000 + p.val < 100000) (j : Fin 64) :
    iblk1 V c 1 t (ix2 p j) = V c main_v35 (ix2 ⟨t.val * 5000 + p.val, h⟩ j) := by
  have e := idx_facts t
  show V c main_v35 (((cfg1.win 1).blk t).view.emb (ix2 p j)) = _
  refine congrArg (V c main_v35) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * j.val = j.val; omega
theorem blk2 (c : Dev nD) (t : Fin cfg1.N) (p : Fin 5000) (h : t.val * 5000 + p.val < 100000) (j : Fin 64) :
    iblk1 V c 2 t (ix2 p j) = V c main_v52 (ix2 ⟨t.val * 5000 + p.val, h⟩ j) := by
  have e := idx_facts t
  show V c main_v52 (((cfg1.win 2).blk t).view.emb (ix2 p j)) = _
  refine congrArg (V c main_v52) (funext fun a => Fin.ext ?_)
  match a with
  | ⟨0, _⟩ => show win1_2.index t (0 : Fin 2) * 5000 + 1 * p.val = t.val * 5000 + p.val; omega
  | ⟨1, _⟩ => show win1_2.index t (1 : Fin 2) * 64 + 1 * j.val = j.val; omega

/-- The weight and bias windows hold their whole arrays at every point. -/
theorem blk3 (c : Dev nD) (t : Fin cfg1.N) (j : Fin 64) (k : Fin 64) : iblk1 V c 3 t (ix2 j k) = V c main_v68 (ix2 j k) := by
  have e := idx_facts t
  show V c main_v68 (((cfg1.win 3).blk t).view.emb (ix2 j k)) = _
  refine congrArg (V c main_v68) (funext fun a => Fin.ext ?_)
  match a with
  | ⟨0, _⟩ => show win1_3.index t (0 : Fin 2) * 64 + 1 * j.val = j.val; omega
  | ⟨1, _⟩ => show win1_3.index t (1 : Fin 2) * 64 + 1 * k.val = k.val; omega
theorem blk4 (c : Dev nD) (t : Fin cfg1.N) (j : Fin 64) (k : Fin 64) : iblk1 V c 4 t (ix2 j k) = V c main_v81 (ix2 j k) := by
  have e := idx_facts t
  show V c main_v81 (((cfg1.win 4).blk t).view.emb (ix2 j k)) = _
  refine congrArg (V c main_v81) (funext fun a => Fin.ext ?_)
  match a with
  | ⟨0, _⟩ => show win1_4.index t (0 : Fin 2) * 64 + 1 * j.val = j.val; omega
  | ⟨1, _⟩ => show win1_4.index t (1 : Fin 2) * 64 + 1 * k.val = k.val; omega
theorem blk5 (c : Dev nD) (t : Fin cfg1.N) (j : Fin 64) (k : Fin 64) : iblk1 V c 5 t (ix2 j k) = V c main_v94 (ix2 j k) := by
  have e := idx_facts t
  show V c main_v94 (((cfg1.win 5).blk t).view.emb (ix2 j k)) = _
  refine congrArg (V c main_v94) (funext fun a => Fin.ext ?_)
  match a with
  | ⟨0, _⟩ => show win1_5.index t (0 : Fin 2) * 64 + 1 * j.val = j.val; omega
  | ⟨1, _⟩ => show win1_5.index t (1 : Fin 2) * 64 + 1 * k.val = k.val; omega
theorem blk6 (c : Dev nD) (t : Fin cfg1.N) (j : Fin 1) (k : Fin 64) : iblk1 V c 6 t (ix2 j k) = V c main_v95 (ix2 j k) := by
  have e := idx_facts t
  show V c main_v95 (((cfg1.win 6).blk t).view.emb (ix2 j k)) = _
  refine congrArg (V c main_v95) (funext fun a => Fin.ext ?_)
  match a with
  | ⟨0, _⟩ => show win1_6.index t (0 : Fin 2) * 1 + 1 * j.val = j.val; omega
  | ⟨1, _⟩ => show win1_6.index t (1 : Fin 2) * 64 + 1 * k.val = k.val; omega
theorem blk7 (c : Dev nD) (t : Fin cfg1.N) (j : Fin 64) (k : Fin 2) : iblk1 V c 7 t (ix2 j k) = V c main_v96 (ix2 j k) := by
  have e := idx_facts t
  show V c main_v96 (((cfg1.win 7).blk t).view.emb (ix2 j k)) = _
  refine congrArg (V c main_v96) (funext fun a => Fin.ext ?_)
  match a with
  | ⟨0, _⟩ => show win1_7.index t (0 : Fin 2) * 64 + 1 * j.val = j.val; omega
  | ⟨1, _⟩ => show win1_7.index t (1 : Fin 2) * 2 + 1 * k.val = k.val; omega
theorem blk8 (c : Dev nD) (t : Fin cfg1.N) (j : Fin 1) (k : Fin 2) : iblk1 V c 8 t (ix2 j k) = V c main_v97 (ix2 j k) := by
  have e := idx_facts t
  show V c main_v97 (((cfg1.win 8).blk t).view.emb (ix2 j k)) = _
  refine congrArg (V c main_v97) (funext fun a => Fin.ext ?_)
  match a with
  | ⟨0, _⟩ => show win1_8.index t (0 : Fin 2) * 1 + 1 * j.val = j.val; omega
  | ⟨1, _⟩ => show win1_8.index t (1 : Fin 2) * 2 + 1 * k.val = k.val; omega

/-- Position `(p, o)` of the output's block `t` is position `(5000 t + p, o)` of the array. -/
theorem emb9 (t : Fin cfg1.N) (p : Fin 5000) (h : t.val * 5000 + p.val < 100000) (o : Fin 2) :
    ((cfg1.win 9).blk t).view.emb (ix2 p o) = ix2 ⟨t.val * 5000 + p.val, h⟩ o := by
  have e := idx_facts t
  refine funext fun a => Fin.ext ?_
  match a with
  | ⟨0, _⟩ => show win1_9.index t (0 : Fin 2) * 5000 + 1 * p.val = t.val * 5000 + p.val; omega
  | ⟨1, _⟩ => show win1_9.index t (1 : Fin 2) * 2 + 1 * o.val = o.val; omega

/-- WHAT POINT `t` WRITES BACK is block `t` of `G` of the arrays as the region finds them. -/
theorem flushed_eq (c : Dev nD) (t : Fin cfg1.N) :
    (dat1 V c).flushed 9 t = ((cfg1.win 9).blk t).view.read (Elt Ideal)
      (G (V c main_v18) (V c main_v35) (V c main_v52) (V c main_v68) (V c main_v81) (V c main_v94) (V c main_v95)
        (V c main_v96) (V c main_v97)) := by
  show (cfg1.win 9).cut (grid1.coords t) ((dat1 V c).after 9 t) = _
  rw [after1_9]
  unfold out1_9
  rw [View.canon_unit_zero hz]
  simp only [View.ld_unit_zero (S := S5000x64) hz, View.ld_unit_zero (S := S64x64) hz, View.ld_unit_zero (S := S1x64) hz,
    View.ld_unit_zero (S := S64x2) hz, View.ld_unit_zero (S := S1x2) hz]
  have key : ∀ y : S5000x2.Idx,
      k1_pay1 (k1_pay2 (iblk1 V c 0 t) (iblk1 V c 1 t) (iblk1 V c 2 t) (iblk1 V c 3 t) (iblk1 V c 4 t) (iblk1 V c 5 t)
          (iblk1 V c 6 t) (iblk1 V c 7 t)) (k1_pay3 (iblk1 V c 8 t)) y
        = G (V c main_v18) (V c main_v35) (V c main_v52) (V c main_v68) (V c main_v81) (V c main_v94) (V c main_v95)
            (V c main_v96) (V c main_v97) (((cfg1.win 9).blk t).view.emb y) := by
    intro y
    obtain ⟨p, o, rfl⟩ : ∃ (p : Fin 5000) (o : Fin 2), y = ix2 p o := ⟨y 0, y 1, eq_ix2 y⟩
    have ht := t_lt t
    have hb : t.val * 5000 + p.val < 100000 := by have := p.isLt; omega
    rw [pay_apply, emb9 t p hb o]
    unfold G
    simp only [blk0 V c t p hb, blk1 V c t p hb, blk2 V c t p hb, blk3 V c t, blk4 V c t, blk5 V c t, blk6 V c t,
      blk7 V c t, blk8 V c t]
  funext y
  exact key y

/-- An index of the array is in point `t`'s block iff each coordinate is in the block's range on its axis. -/
theorem mem_blk (t : Fin cfg1.N) (i : S100000x2.Idx) :
    i ∈ ((cfg1.win 9).blk t).view.set ↔ ∀ a : Fin 2, win1_9.index t a * S5000x2.size a ≤ (i a).val
      ∧ (i a).val < win1_9.index t a * S5000x2.size a + S5000x2.size a := by
  show i ∈ ((View.whole main_v98).slice (win1_9.rect t)).set ↔ _
  rw [View.set_slice_whole, Rect.mem_set_unit]
  exact Iff.rfl

/-- Every row of the array is in the block of the point `row / 5000`, which writes back. -/
theorem cover (i : S100000x2.Idx) :
    ∃ t : Fin cfg1.N, (cfg1.win 9).flush t = true ∧ i ∈ ((cfg1.win 9).blk t).view.set := by
  have hi0 : (i 0).val < 100000 := (i 0).isLt
  have hi1 : (i 1).val < 2 := (i 1).isLt
  have hN : cfg1.N = 20 := N_1
  refine ⟨⟨(i 0).val / 5000, by omega⟩, flush1_9 _, ?_⟩
  rw [mem_blk]
  have e := idx_facts ⟨(i 0).val / 5000, by omega⟩
  obtain ⟨-, -, -, -, -, -, -, -, -, -, -, -, -, -, -, -, -, -, e0, e1⟩ := e
  intro a
  match a with
  | ⟨0, _⟩ =>
    show win1_9.index ⟨(i 0).val / 5000, _⟩ (0 : Fin 2) * 5000 ≤ (i 0).val
      ∧ (i 0).val < win1_9.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, _⟩ (1 : Fin 2) * 2 ≤ (i 1).val
      ∧ (i 1).val < win1_9.index ⟨(i 0).val / 5000, _⟩ (1 : Fin 2) * 2 + 2
    rw [e1]; omega

/-- THE ARRAY after the region: `G` of the arrays as the region finds them. -/
theorem final (c : Dev nD) :
    (dat1 V c).arrAt 9 cfg1.N = G (V c main_v18) (V c main_v35) (V c main_v52) (V c main_v68) (V c main_v81) (V c main_v94)
      (V c main_v95) (V c main_v96) (V c main_v97) :=
  (dat1 V c).arrAt_eq_of_cover 9 (G (V c main_v18) (V c main_v35) (V c main_v52) (V c main_v68) (V c main_v81) (V c main_v94)
      (V c main_v95) (V c main_v96) (V c main_v97))
    (fun t _ => flushed_eq V c t) cover

end Cert.KernelIdeal.Region1
end
-- ==== Proof.Spec.lean ====
/-
  THE FUNCTIONS BOTH PROGRAMS COMPUTE, index by index on the extended reals.

  `mlp`   : two dense layers with rectifiers, `relu (relu (X · W1ᵀ + b1) · W2ᵀ + b2)`, the weights stored `[out, in]`.
  `headOf`: the output head over three feature arrays and three folded `64 × 64` weight matrices:
            `relu (f0 · A0 + f1 · A1 + f2 · A2 + b3) · W4ᵀ + b4`, summed in the association the matrix unit's three
            products and the additions give.
  `foldW` : column block arithmetic of the folded weights, `A k (c, o) = ((0 + t0 · W3 (o, c)) + t1 · W3 (o, 64 + c)) + t2 · W3 (o, 128 + c)`.
-/
import Idealize.ShloMosaic.PureOps
import Idealize.ShloMosaic.Lib.ValueIdx

noncomputable section

namespace Cert.Spec

open Idealize.ShloMosaic Idealize.ShloMosaic.ValueIdx

/-- One dense layer with its rectifier at `(n, q)`: `max (∑ j, x (n, j) * w (q, j) + b q) 0`, the weight stored `[out, in]`. -/
def dense {M K N : Nat} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => max ((∑ j : Fin K, x (ix2 (i 0) j) * w (ix2 (i 1) j)) + b (ix1 (i 1))) 0

/-- The two input layers. -/
def mlp (X : (⟨2, ![100000, 128]⟩ : Shape).Idx → EReal) (W1 : (⟨2, ![64, 128]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![100000, 64]⟩ : Shape).Idx → EReal :=
  dense (dense X W1 b1) W2 b2

/-- The folded weight for feature `k` with coefficients `t0 t1 t2` (those of the three coefficient rows at position `k`), at
    `(c, o)`: the three column blocks of `W3 : [64, 192]` at row `o`, scaled and summed from zero. -/
def foldW (t0 t1 t2 : EReal) (W3 : (⟨2, ![64, 192]⟩ : Shape).Idx → EReal) : (⟨2, ![64, 64]⟩ : Shape).Idx → EReal :=
  fun i => ((0 + t0 * W3 (ix2 (i 1) ⟨(i 0).val, by have := (i 0).isLt; simp at this; omega⟩))
      + t1 * W3 (ix2 (i 1) ⟨64 + (i 0).val, by have := (i 0).isLt; simp at this; omega⟩))
      + t2 * W3 (ix2 (i 1) ⟨128 + (i 0).val, by have := (i 0).isLt; simp at this; omega⟩)

/-- The hidden row of the output head at `(n, k)` before its rectifier: three products into zero accumulators, added left to
    right, plus the bias. -/
def headHidden (f0 f1 f2 : (⟨2, ![100000, 64]⟩ : Shape).Idx → EReal) (A0 A1 A2 : (⟨2, ![64, 64]⟩ : Shape).Idx → EReal)
    (b3 : (⟨1, ![64]⟩ : Shape).Idx → EReal) : (⟨2, ![100000, 64]⟩ : Shape).Idx → EReal :=
  fun i => (((∑ c : Fin 64, f0 (ix2 (i 0) c) * A0 (ix2 c (i 1))) + ∑ c : Fin 64, f1 (ix2 (i 0) c) * A1 (ix2 c (i 1)))
      + ∑ c : Fin 64, f2 (ix2 (i 0) c) * A2 (ix2 c (i 1))) + b3 (ix1 (i 1))

/-- The output head at `(n, o)`. -/
def headOf (f0 f1 f2 : (⟨2, ![100000, 64]⟩ : Shape).Idx → EReal) (A0 A1 A2 : (⟨2, ![64, 64]⟩ : Shape).Idx → EReal)
    (b3 : (⟨1, ![64]⟩ : Shape).Idx → EReal) (W4 : (⟨2, ![2, 64]⟩ : Shape).Idx → EReal) (b4 : (⟨1, ![2]⟩ : Shape).Idx → EReal) :
    (⟨2, ![100000, 2]⟩ : Shape).Idx → EReal :=
  fun i => (∑ k : Fin 64, max (headHidden f0 f1 f2 A0 A1 A2 b3 (ix2 (i 0) k)) 0 * W4 (ix2 (i 1) k)) + b4 (ix1 (i 1))

end Cert.Spec

end
-- ==== Proof.LibGatherRows.lean ====
/-
  WHOLE-ROW GATHERS READ AT AN INDEX.

  What `x[idx]` of a table `x : [N, C]` (or `[N, A, B]`) at an integer vector `idx : [E]` lowers to:
  the index words are first normalised (a negative word has `N` added), the normalised vector is broadcast to
  a column `[E, 1]`, and `stablehlo.gather` reads whole rows: offset_dims the trailing axes, collapsed_slice_dims
  `[0]`, start_index_map `[0]`, index_vector_dim `1`, slice_sizes one row. The gather reads its start index as a
  signed integer and clamps it so that the slice fits, here into `[0, N − 1]`. This file names the row that is
  read for an index word (`rowOf`) and reads the printed normalisation, the broadcast column and the gather
  at an index.
-/
import Idealize.ShloMosaic.PureOps
import Idealize.ShloMosaic.Lib.ValueIdx

namespace Idealize.GatherRows

open Idealize.ShloMosaic Idealize.ShloMosaic.ValueIdx

/-! ## The row read for an index word -/

/-- The normalised index word: the word plus `n` when the word is negative as a signed integer, else the word
    (`i < 0 ? i + n : i`, the addition the machine's, on 32 bits). -/
def normWord (n i : BitVec 32) : BitVec 32 := if i.slt 0#32 then i + n else i

/-- The row of an `N`-row table read for the index word `i`: the normalised word (`N` added to a negative word)
    read as a signed integer and clamped into `[0, N − 1]`. -/
def rowOf (N : Nat) (hN : 0 < N) (i : BitVec 32) : Fin N :=
  ⟨min (normWord (BitVec.ofNat 32 N) i).toInt.toNat (N - 1), by omega⟩

theorem rowOf_val (N : Nat) (hN : 0 < N) (i : BitVec 32) :
    (rowOf N hN i).val = min (normWord (BitVec.ofNat 32 N) i).toInt.toNat (N - 1) := rfl

/-! ## The printed normalisation and the index column, read at a position -/

/-- THE NORMALISATION READ AT A POSITION: `select (idx < 0) (idx + n) idx` with the two constants broadcast from
    scalars is, at every position, the normalised word of the index there. -/
theorem normalise_apply {s : Shape} (idx : IVec s 32) (n : BitVec 32)
    (hz hn : (⟨0, ![]⟩ : Shape).BroadcastsInDim s (![] : Fin 0 → Fin s.rank)) (j : s.Idx) :
    select (cmpi .slt idx (broadcastInDim s ![] hz (constantI ⟨0, ![]⟩ 32 0#32)))
        (addi idx (broadcastInDim s ![] hn (constantI ⟨0, ![]⟩ 32 n))) idx j
      = normWord n (idx j) := by
  show Scalar.select (IntOp.cmpi .slt (idx j) 0#32) (IntOp.addi (idx j) n) (idx j) = normWord n (idx j)
  unfold normWord Scalar.select IntOp.cmpi IntOp.addi
  cases h : (idx j).slt 0#32
  · simp
  · simp

/-- THE INDEX COLUMN READ AT A POSITION: a vector `[E]` broadcast to a column `[E, 1]` reads, at `(e, 0)`, the
    vector at `e`. -/
theorem column_apply {α : Type} {E : Nat} (h : (⟨1, ![E]⟩ : Shape).BroadcastsInDim ⟨2, ![E, 1]⟩ (![0] : Fin 1 → Fin 2))
    (v : (⟨1, ![E]⟩ : Shape).Idx → α) (e : Fin E) (z : Fin 1) :
    broadcastInDim (⟨2, ![E, 1]⟩ : Shape) ![0] h v (ix2 e z) = v (ix1 e) := by
  unfold broadcastInDim
  refine congrArg v (funext fun a => ?_)
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-! ## The whole-row gather of a rank-2 table -/

section Rows
variable {α : Type}

/-- The dimension numbers of a whole-row gather: operand `[N, C]`, start indices a column `[E, 1]`, result `[E, C]`;
    their conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: column `c` of the operand's row at the start index `col[e, 0]`, read signed and
    clamped into `[0, N − 1]`. -/
theorem gather_rowDims_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ w) (e : Fin E) (c : Fin C) :
    Host.gather (rowDims N E C wf) x col (ix2 e c)
      = x (ix2 (⟨min (col (ix2 e 0)).toInt.toNat (N - 1), by omega⟩ : Fin N) c) := by
  unfold Host.gather
  congr 1
  funext a
  refine Fin.ext ?_
  show (rowDims N E C wf).start (ix2 e c) col a + (rowDims N E C wf).batchCoord (ix2 e c) a
      + (rowDims N E C wf).offCoord (ix2 e c) a = _
  rw [GatherDims.batchCoord_eq_zero _ _ _ List.not_mem_nil, Nat.add_zero]
  have h0 : (rowDims N E C wf).start (ix2 e c) col 0 + (rowDims N E C wf).offCoord (ix2 e c) 0
      = min (col (ix2 e 0)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowDims N E C wf).start (ix2 e c) col 1 + (rowDims N E C wf).offCoord (ix2 e c) 1 = c.val := by
    unfold GatherDims.start
    rw [dif_neg (fun h : (1 : Fin 2) ∈ (rowDims N E C wf).startIndexMap =>
      Nat.one_ne_zero (congrArg Fin.val (List.mem_singleton.mp h))), Nat.zero_add]
    rfl
  match a with
  | ⟨0, _⟩ => exact h0
  | ⟨1, _⟩ => exact h1

/-- Dimension numbers with the whole-row fields are `rowDims` (whatever proof of their conditions they carry). -/
theorem eq_rowDims {N E C : Nat} (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowDims N E C wf := by
  obtain ⟨od, cd, ob, sb, sm, iv, ss, wf⟩ := d
  dsimp only at h1 h2 h3 h4 h5 h6 h7
  subst h1 h2 h3 h4 h5 h6 h7
  exact ⟨wf, rfl⟩

/-- THE WHOLE-ROW GATHER AT ANY INDEX COLUMN, for any dimension numbers with the whole-row fields: result `(e, c)` is
    column `c` of the operand's row at the start index `col[e, 0]`, read signed and clamped into `[0, N − 1]`. -/
theorem gather_rows_read {N E C w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (col : IVec ⟨2, ![E, 1]⟩ w) (e : Fin E) (c : Fin C) :
    Host.gather d x col (ix2 e c)
      = x (ix2 (⟨min (col (ix2 e 0)).toInt.toNat (N - 1), by omega⟩ : Fin N) c) := by
  obtain ⟨wf, rfl⟩ := eq_rowDims d h1 h2 h3 h4 h5 h6 h7
  exact gather_rowDims_apply hN wf x col e c

/-- THE ROW GATHER OF A PROGRAM, READ AT `(e, c)`: with the index vector normalised as printed (`N` added to a negative
    word) and broadcast to a column, result `(e, c)` is column `c` of row `rowOf N (idx e)` of the operand. -/
theorem gather_rows_apply {N E C : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2)) (e : Fin E) (c : Fin C) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix2 e c)
      = x (ix2 (rowOf N hN (idx (ix1 e))) c) := by
  rw [gather_rows_read hN d h1 h2 h3 h4 h5 h6 h7]
  refine congrArg x (congrArg (fun r => ix2 r c) (Fin.ext ?_))
  change min _ (N - 1) = min _ (N - 1)
  rw [column_apply, normalise_apply]

end Rows

/-! ## The whole-row gather of a rank-3 table -/

section Rows3
variable {α : Type}

/-- The dimension numbers of a whole-row gather of a rank-3 table: operand `[N, A, B]`, start indices a column `[E, 1]`,
    result `[E, A, B]`. -/
abbrev rowDims3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE RANK-3 GATHER READ AT `(e, a, b)`: element `(a, b)` of the operand's slab at the start index `col[e, 0]`, read
    signed and clamped into `[0, N − 1]`. -/
theorem gather_rowDims3_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (col : IVec ⟨2, ![E, 1]⟩ w) (e : Fin E) (a : Fin A) (b : Fin B) :
    Host.gather (rowDims3 N E A B wf) x col (ix3 e a b)
      = x (ix3 (⟨min (col (ix2 e 0)).toInt.toNat (N - 1), by omega⟩ : Fin N) a b) := by
  unfold Host.gather
  congr 1
  funext k
  refine Fin.ext ?_
  show (rowDims3 N E A B wf).start (ix3 e a b) col k + (rowDims3 N E A B wf).batchCoord (ix3 e a b) k
      + (rowDims3 N E A B wf).offCoord (ix3 e a b) k = _
  rw [GatherDims.batchCoord_eq_zero _ _ _ List.not_mem_nil, Nat.add_zero]
  have h0 : (rowDims3 N E A B wf).start (ix3 e a b) col 0 + (rowDims3 N E A B wf).offCoord (ix3 e a b) 0
      = min (col (ix2 e 0)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 3) ∈ (rowDims3 N E A B wf).startIndexMap from List.mem_singleton.mpr rfl)]
    have hsi : (rowDims3 N E A B wf).siIdx (ix3 e a b) ⟨List.idxOf (0 : Fin 3) (rowDims3 N E A B wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  have h1 : (rowDims3 N E A B wf).start (ix3 e a b) col 1 + (rowDims3 N E A B wf).offCoord (ix3 e a b) 1 = a.val := by
    unfold GatherDims.start
    rw [dif_neg (fun h : (1 : Fin 3) ∈ (rowDims3 N E A B wf).startIndexMap =>
      Nat.one_ne_zero (congrArg Fin.val (List.mem_singleton.mp h))), Nat.zero_add]
    rfl
  have h2 : (rowDims3 N E A B wf).start (ix3 e a b) col 2 + (rowDims3 N E A B wf).offCoord (ix3 e a b) 2 = b.val := by
    unfold GatherDims.start
    rw [dif_neg (fun h : (2 : Fin 3) ∈ (rowDims3 N E A B wf).startIndexMap =>
      (by decide : (2 : Nat) ≠ 0) (congrArg Fin.val (List.mem_singleton.mp h))), Nat.zero_add]
    rfl
  match k with
  | ⟨0, _⟩ => exact h0
  | ⟨1, _⟩ => exact h1
  | ⟨2, _⟩ => exact h2

/-- Dimension numbers with the rank-3 whole-row fields are `rowDims3`. -/
theorem eq_rowDims3 {N E A B : Nat} (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B]) : ∃ wf, d = rowDims3 N E A B wf := by
  obtain ⟨od, cd, ob, sb, sm, iv, ss, wf⟩ := d
  dsimp only at h1 h2 h3 h4 h5 h6 h7
  subst h1 h2 h3 h4 h5 h6 h7
  exact ⟨wf, rfl⟩

/-- THE RANK-3 WHOLE-ROW GATHER AT ANY INDEX COLUMN, for any dimension numbers with those fields. -/
theorem gather_rows3_read {N E A B w : Nat} (hN : 0 < N) (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (col : IVec ⟨2, ![E, 1]⟩ w) (e : Fin E) (a : Fin A) (b : Fin B) :
    Host.gather d x col (ix3 e a b)
      = x (ix3 (⟨min (col (ix2 e 0)).toInt.toNat (N - 1), by omega⟩ : Fin N) a b) := by
  obtain ⟨wf, rfl⟩ := eq_rowDims3 d h1 h2 h3 h4 h5 h6 h7
  exact gather_rowDims3_apply hN wf x col e a b

/-- THE RANK-3 ROW GATHER OF A PROGRAM, READ AT `(e, a, b)`: with the index vector normalised as printed and broadcast
    to a column, result `(e, a, b)` is element `(a, b)` of slab `rowOf N (idx e)` of the operand. -/
theorem gather_rows3_apply {N E A B : Nat} (hN : 0 < N) (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (e : Fin E) (a : Fin A) (b : Fin B) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix3 e a b)
      = x (ix3 (rowOf N hN (idx (ix1 e))) a b) := by
  rw [gather_rows3_read hN d h1 h2 h3 h4 h5 h6 h7]
  refine congrArg x (congrArg (fun r => ix3 r a b) (Fin.ext ?_))
  change min _ (N - 1) = min _ (N - 1)
  rw [column_apply, normalise_apply]

end Rows3

end Idealize.GatherRows
-- ==== Proof.LibScatterRows.lean ====
/-
  ROW SCATTER-ADDS AND RANK-1 GATHERS READ AT AN INDEX.

  A segment sum of per-edge rows `u : [E, C]` into the `N` rows of a table, at a row vector `row : [E]`, lowers to
  `stablehlo.scatter` with an `add` body: the row vector is broadcast to a column `[E, 1]` (NOT normalised), update
  window axes `[1]`, inserted window axes `[0]`, scatter-dims-to-operand-dims `[0]`, index vector axis `1`. The scatter
  reads its start index as a signed integer and does not clamp it: update `(e, c)` lands at `(row[e], c)` when
  `0 ≤ row[e] < N` and is dropped otherwise. This file says where an update lands, relates the landing row to the row a
  GATHER reads for the same index word (a word whose signed value is a valid row is not negative, so the gather's
  normalisation and clamp leave it), and reads the rank-1 gather `d[idx]` of a vector `d : [N]` at an index.
-/
import Idealize.ShloMosaic.PureOps
import Idealize.ShloMosaic.Lib.ValueIdx
import proofs.«163378_j7138235646046_2_alg».proof.Proof.LibGatherRows

namespace Idealize.GatherRows

open Idealize.ShloMosaic Idealize.ShloMosaic.ValueIdx

/-! ## The gather of a vector at an index column -/

section Vec
variable {α : Type}

/-- The dimension numbers of the element gather of a vector: operand `[N]`, start indices a column `[E, 1]`, result
    `[E]`; their conditions `wf` are decided on a program's literal shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `col[e, 0]`, read signed and clamped into
    `[0, N − 1]`. -/
theorem gather_vecDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (col : IVec ⟨2, ![E, 1]⟩ w) (e : Fin E) :
    Host.gather (vecDims N E wf) x col (ix1 e)
      = x (ix1 (⟨min (col (ix2 e 0)).toInt.toNat (N - 1), by omega⟩ : Fin N)) := by
  unfold Host.gather
  congr 1
  funext a
  obtain rfl : a = 0 := Subsingleton.elim _ _
  refine Fin.ext ?_
  show (vecDims N E wf).start (ix1 e) col 0 + (vecDims N E wf).batchCoord (ix1 e) 0
      + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Dimension numbers with the vector-gather fields are `vecDims` (whatever proof of their conditions they carry). -/
theorem eq_vecDims {N E : Nat} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) : ∃ wf, d = vecDims N E wf := by
  obtain ⟨od, cd, ob, sb, sm, iv, ss, wf⟩ := d
  dsimp only at h1 h2 h3 h4 h5 h6 h7
  subst h1 h2 h3 h4 h5 h6 h7
  exact ⟨wf, rfl⟩

/-- THE VECTOR GATHER AT ANY INDEX COLUMN, for any dimension numbers with the vector-gather fields: result `e` is the
    operand at the start index `col[e, 0]`, read signed and clamped into `[0, N − 1]`. -/
theorem gather_vec_read {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (col : IVec ⟨2, ![E, 1]⟩ w) (e : Fin E) :
    Host.gather d x col (ix1 e)
      = x (ix1 (⟨min (col (ix2 e 0)).toInt.toNat (N - 1), by omega⟩ : Fin N)) := by
  obtain ⟨wf, rfl⟩ := eq_vecDims d h1 h2 h3 h4 h5 h6 h7
  exact gather_vecDims_apply hN wf x col e

/-- THE VECTOR GATHER OF A PROGRAM, READ AT `e`: with the index vector normalised as printed (`N` added to a negative
    word) and broadcast to a column, result `e` is element `rowOf N (idx e)` of the operand. -/
theorem gather_vec_apply {N E : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2)) (e : Fin E) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix1 e)
      = x (ix1 (rowOf N hN (idx (ix1 e)))) := by
  rw [gather_vec_read hN d h1 h2 h3 h4 h5 h6 h7]
  refine congrArg x (congrArg (fun r => ix1 r) (Fin.ext ?_))
  change min _ (N - 1) = min _ (N - 1)
  rw [column_apply, normalise_apply]

end Vec

/-! ## Where a row scatter's update lands -/

section Scatter

/-- The dimension numbers of a row scatter: operand `[N, C]`, scatter indices a column `[E, 1]`, updates `[E, C]`;
    their conditions `wf` are decided on a program's literal shapes. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at the index word `idx[e, 0]` read as a signed integer. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e c) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the start index names the row axis only. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatter N E C wf).start j idx 1 = 0 := by
  unfold ScatterDims.start
  rw [dif_neg (fun h : (1 : Fin 2) ∈ (rowScatter N E C wf).scatterDimsToOperandDims =>
    Nat.one_ne_zero (congrArg Fin.val (List.mem_singleton.mp h)))]

/-- The row axis is an inserted window axis: the window coordinate there is `0`. -/
theorem rowScatter_window_zero {N E C : Nat}
    (wf : ScatterDims.WF ⟨2, ![N, C]⟩ ⟨2, ![E, 1]⟩ ⟨2, ![E, C]⟩ [1] [0] [0] 1)
    (j : (⟨2, ![E, C]⟩ : Shape).Idx) : (rowScatter N E C wf).window j 0 = 0 := by
  unfold ScatterDims.window
  rw [dif_neg (fun h : (0 : Fin 2) ∈ (rowScatter N E C wf).sKept =>
    (of_decide_eq_true (List.mem_filter.mp h).2) (List.mem_singleton.mpr rfl))]

/-- On the column axis the window coordinate of update `(e, c)` is `c`. -/
theorem rowScatter_window_one {N E C : Nat}
    (wf : ScatterDims.WF ⟨2, ![N, C]⟩ ⟨2, ![E, 1]⟩ ⟨2, ![E, C]⟩ [1] [0] [0] 1)
    (e : Fin E) (c : Fin C) : (rowScatter N E C wf).window (ix2 e c) 1 = c.val := by
  unfold ScatterDims.window
  rw [dif_pos (show (1 : Fin 2) ∈ (rowScatter N E C wf).sKept from
    List.mem_filter.mpr ⟨List.mem_finRange _, decide_eq_true (fun h : (1 : Fin 2) ∈ ([0] : List (Fin 2)) =>
      Nat.one_ne_zero (congrArg Fin.val (List.mem_singleton.mp h)))⟩)]
  rfl

/-- WHERE AN UPDATE LANDS: if update `(e, c)` of a row scatter lands at `(n, k)`, then the index word `idx[e, 0]`,
    read signed, is `n`, and `c = k`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (k : Fin C)
    (h : (rowScatter N E C wf).resultIdx? (ix2 e c) idx = some (ix2 n k)) :
    (idx (ix2 e 0)).toInt = (n.val : Int) ∧ c = k := by
  unfold ScatterDims.resultIdx? at h
  split at h
  · rename_i hin
    have hi := Option.some.inj h
    have h0 : ((rowScatter N E C wf).start (ix2 e c) idx 0
        + ((rowScatter N E C wf).window (ix2 e c) 0 : Nat)).toNat = n.val := congrArg Fin.val (congrFun hi 0)
    have h1 : ((rowScatter N E C wf).start (ix2 e c) idx 1
        + ((rowScatter N E C wf).window (ix2 e c) 1 : Nat)).toNat = k.val := congrArg Fin.val (congrFun hi 1)
    have hb0 := (hin 0).1
    rw [rowScatter_start_zero, rowScatter_window_zero] at h0 hb0
    rw [rowScatter_start_one, rowScatter_window_one] at h1
    refine ⟨by omega, Fin.ext (by omega)⟩
  · exact absurd h (by simp)

/-- Dimension numbers with the row-scatter fields are `rowScatter` (whatever proof of their conditions they carry). -/
theorem eq_rowScatter {N E C : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) : ∃ wf, d = rowScatter N E C wf := by
  obtain ⟨uw, iw, sd, iv, wf⟩ := d
  dsimp only at h1 h2 h3 h4
  subst h1 h2 h3 h4
  exact ⟨wf, rfl⟩

/-- WHERE AN UPDATE LANDS, for any dimension numbers with the row-scatter fields: an update `(e, c)` that lands on
    `(n, k)` has index word `idx[e, 0]` equal to `n` read signed, and `c = k`. -/
theorem scatter_rows_lands {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c : Fin C) (n : Fin N) (k : Fin C)
    (h : d.resultIdx? (ix2 e c) idx = some (ix2 n k)) :
    (idx (ix2 e 0)).toInt = (n.val : Int) ∧ c = k := by
  obtain ⟨wf, rfl⟩ := eq_rowScatter d h1 h2 h3 h4
  exact rowScatter_lands wf idx e c n k h

end Scatter

/-! ## The landing row is the row a gather reads -/

/-- A word whose signed value is a valid row `n < N` is not negative, so the gather's normalisation leaves it and the
    clamp into `[0, N − 1]` leaves it: the row read for it is `n`. -/
theorem rowOf_of_toInt {N : Nat} (hN : 0 < N) (i : BitVec 32) (n : Fin N) (h : i.toInt = (n.val : Int)) :
    rowOf N hN i = n := by
  refine Fin.ext ?_
  rw [rowOf_val]
  have hns : i.slt 0#32 = false := by
    rw [BitVec.slt, decide_eq_false_iff_not, BitVec.toInt_zero, h]
    omega
  unfold normWord
  rw [hns]
  simp only [Bool.false_eq_true, if_false, h, Int.toNat_natCast]
  have := n.isLt
  omega

/-- THE LANDING ROW IS THE GATHER'S ROW: if update `(e, c)` of a row scatter at the column of the RAW index vector
    `idx` lands at `(n, k)`, then the row a gather reads for the word `idx[e]` is `n`; and `c = k`. -/
theorem scatter_rows_lands_rowOf {N E C : Nat} (hN : 0 < N) (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨1, ![E]⟩ 32) (hb : (⟨1, ![E]⟩ : Shape).BroadcastsInDim ⟨2, ![E, 1]⟩ (![0] : Fin 1 → Fin 2))
    (e : Fin E) (c : Fin C) (n : Fin N) (k : Fin C)
    (h : d.resultIdx? (ix2 e c) (broadcastInDim (⟨2, ![E, 1]⟩ : Shape) ![0] hb idx) = some (ix2 n k)) :
    rowOf N hN (idx (ix1 e)) = n ∧ c = k := by
  obtain ⟨h0, hc⟩ := scatter_rows_lands d h1 h2 h3 h4 _ e c n k h
  rw [column_apply] at h0
  exact ⟨rowOf_of_toInt hN _ n h0, hc⟩

end Idealize.GatherRows
-- ==== Proof.LibRowLinear.lean ====
/-
  Two general facts about finite sums of real numbers read in the extended reals. Neither mentions a program.

  1. The cast of a finite sum of reals is the sum of the casts (`coe_finset_sum`).
  2. A product distributes over a sum when every entry is a real number, and so a contraction
     Σ_j (a_j + b_j)·w_j splits into Σ_j a_j·w_j + Σ_j b_j·w_j (`sum_add_mul`). On the extended reals this fails
     without the hypothesis ((⊤ + ⊥)·w against ⊤·w + ⊥·w), so it is the place where a value proof over the extended
     reals uses that its inputs are finite.

  Where it is used here: the kernel forms an edge's key row as (k·Wk)[src] + e·Wk, two matrix products added; the
  reference forms it as (k[src] + e)·Wk, one product of a sum. Entry by entry the first is Σ_j a_j·w_j + Σ_j b_j·w_j
  and the second Σ_j (a_j + b_j)·w_j, with a a row of k, b a row of e and w a column of Wk, all finite by the
  precondition.
-/
import Mathlib.Data.EReal.Operations
import Mathlib.Algebra.BigOperators.Group.Finset.Basic

namespace Idealize.ERealSums

/-- An extended real that is a real number: neither infinity. -/
def IsReal (x : EReal) : Prop := x ≠ ⊤ ∧ x ≠ ⊥

/-- A real number read as an extended real is a real number. -/
theorem isReal_coe (x : ℝ) : IsReal (x : EReal) := ⟨EReal.coe_ne_top x, EReal.coe_ne_bot x⟩

/-- The cast of a finite sum of reals is the sum of the casts. -/
theorem coe_finset_sum {ι : Type} (s : Finset ι) (f : ι → ℝ) :
    ((∑ j ∈ s, f j : ℝ) : EReal) = ∑ j ∈ s, (f j : EReal) := by
  classical
  refine Finset.induction_on s (by simp) fun a t ha ih => ?_
  rw [Finset.sum_insert ha, Finset.sum_insert ha, EReal.coe_add, ih]

/-- On real numbers read as extended reals the product distributes over the sum. -/
theorem coe_add_mul (a b w : ℝ) :
    ((a : EReal) + (b : EReal)) * (w : EReal) = (a : EReal) * (w : EReal) + (b : EReal) * (w : EReal) := by
  rw [← EReal.coe_add, ← EReal.coe_mul, ← EReal.coe_mul, ← EReal.coe_mul, ← EReal.coe_add, add_mul]

/-- The same for extended reals known to be real. -/
theorem add_mul_of_isReal {a b w : EReal} (ha : IsReal a) (hb : IsReal b) (hw : IsReal w) :
    (a + b) * w = a * w + b * w := by
  lift a to ℝ using ha
  lift b to ℝ using hb
  lift w to ℝ using hw
  exact coe_add_mul a b w

/-- A row of sums against a column is the sum of the two rows against it, when every entry is real: the contraction of a
    matrix product is additive in its left factor. -/
theorem sum_add_mul {ι : Type} (s : Finset ι) (a b w : ι → EReal)
    (ha : ∀ j, IsReal (a j)) (hb : ∀ j, IsReal (b j)) (hw : ∀ j, IsReal (w j)) :
    (∑ j ∈ s, (a j + b j) * w j) = (∑ j ∈ s, a j * w j) + ∑ j ∈ s, b j * w j := by
  rw [← Finset.sum_add_distrib]
  exact Finset.sum_congr rfl fun j _ => add_mul_of_isReal (ha j) (hb j) (hw j)

end Idealize.ERealSums
-- ==== Proof.LibLaplacian.lean ====
/-
  ONE STEP OF THE NORMALISED GRAPH LAPLACIAN, WRITTEN TWO WAYS.

  A graph on `N` nodes has `E` edges given by two index vectors `row, col : [E]`. With node weights `dinv : [N]`
  (the inverse square roots of the degrees) and features `f : [N, C]`, the step is

      (L f)[n, c] = f[n, c] − Σ_{e : row[e] = n} dinv[n] · dinv[col[e]] · f[col[e], c].

  One program forms the edge weight `w[e] = dinv[row[e]] · dinv[col[e]]` first, scales the gathered rows
  `f[col[e], ·]` by it and segment-sums them into the rows `row[e]`; the other scales the table by `dinv`, gathers,
  segment-sums, and scales the result by `dinv` again. The two agree because, in the sum for row `n`, every edge has
  `row[e] = n`, so the factor `dinv[row[e]] = dinv[n]` is common to the whole sum and comes out of it. Taking a factor
  out of a sum is not a law of the extended reals (`⊤ + ⊥`), so this is where the two arrays being real-valued is
  used. The file also shows that the step keeps an array real-valued, and that the weight `d ↦ (d > 0 ? 1/√d : 0)` is a
  real number for EVERY extended real `d`.
-/
import Idealize.ShloMosaic.PureOps
import Idealize.ShloMosaic.PureOps.Ideal.Laws
import Idealize.ShloMosaic.Lib.ValueIdx
import Idealize.ShloMosaic.Lib.IdealHost
import Idealize.ShloMosaic.Lib.Pipeline.Value
import proofs.«163378_j7138235646046_2_alg».proof.Proof.LibGatherRows
import proofs.«163378_j7138235646046_2_alg».proof.Proof.LibScatterRows
import proofs.«163378_j7138235646046_2_alg».proof.Proof.LibRowLinear

namespace Idealize.Laplacian

open Idealize.ShloMosaic Idealize.ShloMosaic.ValueIdx Idealize.GatherRows Idealize.ERealSums

/-! ## The weight of a degree is a real number -/

/-- `x > y` holds: the comparison's bit is `1`. -/
theorem cmp_ogt_of_lt {x y : EReal} (h : y < x) : Ideal.cmp .ogt x y = 1#1 := by
  show BitVec.ofBool (decide (y < x)) = 1#1
  rw [decide_eq_true h]; rfl

/-- `x > y` fails: the comparison's bit is `0`. -/
theorem cmp_ogt_of_not_lt {x y : EReal} (h : ¬ y < x) : Ideal.cmp .ogt x y = 0#1 := by
  show BitVec.ofBool (decide (y < x)) = 0#1
  rw [decide_eq_false h]; rfl

/-- THE WEIGHT OF A DEGREE IS REAL: `d > 0 ? 1 / √d : 0` is a real number for every extended real `d`. For `d ≤ 0`
    (and for `⊥`) the select gives `0`; for a real `d > 0` the root is a positive real and its reciprocal a real; for
    `d = ⊤` the root is `⊤` and `1 / ⊤ = 1 · ⊤⁻¹ = 0`. -/
theorem weight_scalar_real (d : EReal) :
    ∃ r : ℝ, Scalar.select (Ideal.cmp .ogt d 0) (Ideal.div 1 (Ideal.sqrt d)) 0 = (r : EReal) := by
  induction d using EReal.rec with
  | bot =>
    rw [cmp_ogt_of_not_lt (not_lt_bot), select_zero]
    exact ⟨0, EReal.coe_zero.symm⟩
  | coe r =>
    by_cases hr : 0 < r
    · rw [cmp_ogt_of_lt (EReal.coe_pos.2 hr), select_one, Ideal.sqrt_coe, if_neg (not_lt.2 hr.le),
        Ideal.div_coe (Real.sqrt_ne_zero'.2 hr), one_mul]
      exact ⟨_, rfl⟩
    · rw [cmp_ogt_of_not_lt (fun h => hr (EReal.coe_pos.1 h)), select_zero]
      exact ⟨0, EReal.coe_zero.symm⟩
  | top =>
    rw [cmp_ogt_of_lt EReal.zero_lt_top, select_one, Ideal.sqrt_top]
    unfold Ideal.div
    rw [if_neg EReal.top_ne_zero, EReal.inv_top, mul_zero]
    exact ⟨0, EReal.coe_zero.symm⟩

/-- The weight array at an index, for any arrays `z, o, z'` that read `0, 1, 0` there:
    `select (deg > z) (o / sqrt deg) z'` is a real number at that index, whatever `deg` is. -/
theorem weight_real_at {s : Shape} (deg z o z' : FVec Ideal s .f32) (i : s.Idx)
    (hz : z i = 0) (ho : o i = 1) (hz' : z' i = 0) :
    ∃ r : ℝ, select (cmpf .ogt deg z) (Host.divf o (Host.sqrt deg)) z' i = (r : EReal) := by
  show ∃ r : ℝ, Scalar.select (Ideal.cmp .ogt (deg i) (z i)) (Ideal.div (o i) (Ideal.sqrt (deg i))) (z' i) = (r : EReal)
  rw [hz, ho, hz']
  exact weight_scalar_real (deg i)

/-- THE WEIGHT ARRAY OF A PROGRAM IS REAL-VALUED: with the zero and one constants broadcast from scalars as printed,
    `select (deg > 0) (1 / sqrt deg) 0` is a real number at every index, for ANY degree array `deg`. -/
theorem weight_real {s : Shape} (deg : FVec Ideal s .f32)
    (hz ho hz' : (⟨0, ![]⟩ : Shape).BroadcastsInDim s (![] : Fin 0 → Fin s.rank)) (i : s.Idx) :
    ∃ r : ℝ, select (cmpf .ogt deg (broadcastInDim s ![] hz (constant ⟨0, ![]⟩ .f32 0x00000000#32)))
        (Host.divf (broadcastInDim s ![] ho (constant ⟨0, ![]⟩ .f32 0x3F800000#32)) (Host.sqrt deg))
        (broadcastInDim s ![] hz' (constant ⟨0, ![]⟩ .f32 0x00000000#32)) i = (r : EReal) :=
  weight_real_at deg _ _ _ i (show Ideal.ofBits .f32 0x00000000#32 = 0 from Ideal.ofBits_zero_f32)
    (show Ideal.ofBits .f32 0x3F800000#32 = 1 from Ideal.ofBits_one_f32)
    (show Ideal.ofBits .f32 0x00000000#32 = 0 from Ideal.ofBits_zero_f32)

/-! ## Broadcasts and the segment sum read at an index -/

section Reads
variable {α : Type}

/-- A column `[E, 1]` stretched to `[E, C]` reads, at `(e, c)`, the column at `(e, 0)`. -/
theorem stretch_apply {E C : Nat}
    (h : (⟨2, ![E, 1]⟩ : Shape).BroadcastsInDim ⟨2, ![E, C]⟩ (![0, 1] : Fin 2 → Fin 2))
    (u : (⟨2, ![E, 1]⟩ : Shape).Idx → α) (e : Fin E) (c : Fin C) :
    broadcastInDim (⟨2, ![E, C]⟩ : Shape) ![0, 1] h u (ix2 e c) = u (ix2 e 0) := by
  refine broadcastInDim_apply _ h u _ _ (fun a => ?_)
  match a with
  | ⟨0, _⟩ =>
    show e.val = if E = 1 then 0 else e.val
    have := e.isLt
    split <;> omega
  | ⟨1, _⟩ => rfl

/-- A vector `[N]` broadcast along the rows of `[N, C]` (first to a column, then stretched) reads, at `(n, c)`, the
    vector at `n`. -/
theorem rows_apply {N C : Nat}
    (hN1 : (⟨1, ![N]⟩ : Shape).BroadcastsInDim ⟨2, ![N, 1]⟩ (![0] : Fin 1 → Fin 2))
    (hNC : (⟨2, ![N, 1]⟩ : Shape).BroadcastsInDim ⟨2, ![N, C]⟩ (![0, 1] : Fin 2 → Fin 2))
    (v : (⟨1, ![N]⟩ : Shape).Idx → α) (n : Fin N) (c : Fin C) :
    broadcastInDim (⟨2, ![N, C]⟩ : Shape) ![0, 1] hNC (broadcastInDim (⟨2, ![N, 1]⟩ : Shape) ![0] hN1 v) (ix2 n c)
      = v (ix1 n) := by
  rw [stretch_apply, column_apply]

end Reads

/-- The float zero constant broadcast to any shape reads `0` everywhere. -/
theorem zeros_apply {s : Shape} (h : (⟨0, ![]⟩ : Shape).BroadcastsInDim s (![] : Fin 0 → Fin s.rank)) (i : s.Idx) :
    broadcastInDim s ![] h (constant (F := Ideal) ⟨0, ![]⟩ .f32 0x00000000#32) i = 0 :=
  show Ideal.ofBits .f32 0x00000000#32 = 0 from Ideal.ofBits_zero_f32

/-- The host's scatter with an `add` body, at an index: the operand there plus the sum of the updates that land
    there. -/
theorem scatterAdd_apply {s si su : Shape} {w : Nat} (d : ScatterDims s si su) (x : FVec Ideal s .f32)
    (idx : IVec si w) (upd : FVec Ideal su .f32) (i : s.Idx) :
    Host.scatterAdd d x idx upd i
      = x i + ∑ j ∈ Finset.univ.filter (fun j => d.resultIdx? j idx = some i), upd j := rfl

/-! ## A common real factor comes out of a finite sum -/

/-- A real factor distributes over a finite sum of real numbers read in the extended reals. -/
theorem mul_sum_real {ι : Type} (S : Finset ι) (a : ℝ) (u : ι → EReal) (hu : ∀ j, ∃ r : ℝ, u j = (r : EReal)) :
    (a : EReal) * ∑ j ∈ S, u j = ∑ j ∈ S, (a : EReal) * u j := by
  choose v hv using hu
  rw [Finset.sum_congr rfl (fun j _ => hv j), ← coe_finset_sum, ← EReal.coe_mul, Finset.mul_sum, coe_finset_sum]
  exact Finset.sum_congr rfl (fun j _ => by rw [EReal.coe_mul, hv j])

/-- A finite sum of real numbers read in the extended reals is a real number. -/
theorem sum_real {ι : Type} (S : Finset ι) (u : ι → EReal) (hu : ∀ j, ∃ r : ℝ, u j = (r : EReal)) :
    ∃ r : ℝ, ∑ j ∈ S, u j = (r : EReal) := by
  choose v hv using hu
  exact ⟨∑ j ∈ S, v j, by rw [Finset.sum_congr rfl (fun j _ => hv j), coe_finset_sum]⟩

/-- If every term of one sum is the real factor `a` times the matching term of another, whose terms are real, then
    `x − (0 + Σ u₁) = x − a · (0 + Σ u₂)`. -/
theorem sub_zero_add_sum {ι : Type} (S : Finset ι) (x : EReal) (a : ℝ) (u₁ u₂ : ι → EReal)
    (hu : ∀ j, ∃ r : ℝ, u₂ j = (r : EReal)) (h : ∀ j ∈ S, u₁ j = (a : EReal) * u₂ j) :
    x - (0 + ∑ j ∈ S, u₁ j) = x - (a : EReal) * (0 + ∑ j ∈ S, u₂ j) := by
  rw [zero_add, zero_add, Finset.sum_congr rfl h, mul_sum_real S a u₂ hu]

/-! ## The two forms of the step -/

section Step

/-- The gathered rows of the scaled table are real numbers: entry `(e, k)` is `dinv[r] · f[r, k]` at the row `r` read for
    `col[e]`. -/
theorem gather_scaled_real {N E C : Nat} (hN : 0 < N)
    (ds : ScatterDims ⟨2, ![N, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (dg1 : GatherDims ⟨1, ![N]⟩ ⟨2, ![E, 1]⟩ ⟨1, ![E]⟩)
    (a1 : dg1.offsetDims = []) (a2 : dg1.collapsedSliceDims = [0]) (a3 : dg1.operandBatchingDims = [])
    (a4 : dg1.startIndicesBatchingDims = []) (a5 : dg1.startIndexMap = [0]) (a6 : dg1.indexVectorDim = 1)
    (a7 : dg1.sliceSizes = ![1])
    (dg2 : GatherDims ⟨2, ![N, C]⟩ ⟨2, ![E, 1]⟩ ⟨2, ![E, C]⟩)
    (b1 : dg2.offsetDims = [1]) (b2 : dg2.collapsedSliceDims = [0]) (b3 : dg2.operandBatchingDims = [])
    (b4 : dg2.startIndicesBatchingDims = []) (b5 : dg2.startIndexMap = [0]) (b6 : dg2.indexVectorDim = 1)
    (b7 : dg2.sliceSizes = ![1, C])
    (dinv : FVec Ideal ⟨1, ![N]⟩ .f32) (f : FVec Ideal ⟨2, ![N, C]⟩ .f32) (row col : IVec ⟨1, ![E]⟩ 32)
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (hzero : (⟨0, ![]⟩ : Shape).BroadcastsInDim ⟨2, ![N, C]⟩ (![] : Fin 0 → Fin 2))
    (hEC : (⟨2, ![E, 1]⟩ : Shape).BroadcastsInDim ⟨2, ![E, C]⟩ (![0, 1] : Fin 2 → Fin 2))
    (hN1 : (⟨1, ![N]⟩ : Shape).BroadcastsInDim ⟨2, ![N, 1]⟩ (![0] : Fin 1 → Fin 2))
    (hNC : (⟨2, ![N, 1]⟩ : Shape).BroadcastsInDim ⟨2, ![N, C]⟩ (![0, 1] : Fin 2 → Fin 2))
    (hd : ∀ i, ∃ r : ℝ, dinv i = (r : EReal)) (hf : ∀ i, ∃ r : ℝ, f i = (r : EReal)) (j : (⟨2, ![E, C]⟩ : Shape).Idx) :
    ∃ r : ℝ, Host.gather dg2 (mulf (broadcastInDim (⟨2, ![N, C]⟩ : Shape) ![0, 1] hNC (broadcastInDim (⟨2, ![N, 1]⟩ : Shape) ![0] hN1 dinv)) f) (broadcastInDim (⟨2, ![E, 1]⟩ : Shape) ![0] hb (select (cmpi .slt col (broadcastInDim (⟨1, ![E]⟩ : Shape) ![] hz (constantI ⟨0, ![]⟩ 32 0#32)))
            (addi col (broadcastInDim (⟨1, ![E]⟩ : Shape) ![] hz (constantI ⟨0, ![]⟩ 32 (BitVec.ofNat 32 N)))) col)) j = (r : EReal) := by
  obtain ⟨e, k, rfl⟩ : ∃ e k, j = ix2 e k := ⟨j 0, j 1, eq_ix2 j⟩
  rw [gather_rows_apply hN dg2 b1 b2 b3 b4 b5 b6 b7, mulf_apply, rows_apply]
  obtain ⟨p, hp⟩ := hd (ix1 (rowOf N hN (col (ix1 e))))
  obtain ⟨q, hq⟩ := hf (ix2 (rowOf N hN (col (ix1 e))) k)
  exact ⟨p * q, by rw [hp, hq, EReal.coe_mul]⟩

/-- THE TWO FORMS OF THE STEP ARE THE SAME ARRAY, for real-valued weights and features: scaling each gathered row by the
    edge weight `dinv[row[e]] · dinv[col[e]]` before the segment sum, or scaling the table by `dinv` before the gather
    and the segment sum by `dinv` after it. -/
theorem lap_eq {N E C : Nat} (hN : 0 < N)
    (ds : ScatterDims ⟨2, ![N, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (dg1 : GatherDims ⟨1, ![N]⟩ ⟨2, ![E, 1]⟩ ⟨1, ![E]⟩)
    (a1 : dg1.offsetDims = []) (a2 : dg1.collapsedSliceDims = [0]) (a3 : dg1.operandBatchingDims = [])
    (a4 : dg1.startIndicesBatchingDims = []) (a5 : dg1.startIndexMap = [0]) (a6 : dg1.indexVectorDim = 1)
    (a7 : dg1.sliceSizes = ![1])
    (dg2 : GatherDims ⟨2, ![N, C]⟩ ⟨2, ![E, 1]⟩ ⟨2, ![E, C]⟩)
    (b1 : dg2.offsetDims = [1]) (b2 : dg2.collapsedSliceDims = [0]) (b3 : dg2.operandBatchingDims = [])
    (b4 : dg2.startIndicesBatchingDims = []) (b5 : dg2.startIndexMap = [0]) (b6 : dg2.indexVectorDim = 1)
    (b7 : dg2.sliceSizes = ![1, C])
    (dinv : FVec Ideal ⟨1, ![N]⟩ .f32) (f : FVec Ideal ⟨2, ![N, C]⟩ .f32) (row col : IVec ⟨1, ![E]⟩ 32)
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (hzero : (⟨0, ![]⟩ : Shape).BroadcastsInDim ⟨2, ![N, C]⟩ (![] : Fin 0 → Fin 2))
    (hEC : (⟨2, ![E, 1]⟩ : Shape).BroadcastsInDim ⟨2, ![E, C]⟩ (![0, 1] : Fin 2 → Fin 2))
    (hN1 : (⟨1, ![N]⟩ : Shape).BroadcastsInDim ⟨2, ![N, 1]⟩ (![0] : Fin 1 → Fin 2))
    (hNC : (⟨2, ![N, 1]⟩ : Shape).BroadcastsInDim ⟨2, ![N, C]⟩ (![0, 1] : Fin 2 → Fin 2))
    (hd : ∀ i, ∃ r : ℝ, dinv i = (r : EReal)) (hf : ∀ i, ∃ r : ℝ, f i = (r : EReal)) :
    subf f (Host.scatterAdd ds (broadcastInDim (⟨2, ![N, C]⟩ : Shape) ![] hzero (constant ⟨0, ![]⟩ .f32 0x00000000#32)) (broadcastInDim (⟨2, ![E, 1]⟩ : Shape) ![0] hb row)
        (mulf (broadcastInDim (⟨2, ![E, C]⟩ : Shape) ![0, 1] hEC (broadcastInDim (⟨2, ![E, 1]⟩ : Shape) ![0] hb (mulf (Host.gather dg1 dinv (broadcastInDim (⟨2, ![E, 1]⟩ : Shape) ![0] hb (select (cmpi .slt row (broadcastInDim (⟨1, ![E]⟩ : Shape) ![] hz (constantI ⟨0, ![]⟩ 32 0#32)))
            (addi row (broadcastInDim (⟨1, ![E]⟩ : Shape) ![] hz (constantI ⟨0, ![]⟩ 32 (BitVec.ofNat 32 N)))) row)))
              (Host.gather dg1 dinv (broadcastInDim (⟨2, ![E, 1]⟩ : Shape) ![0] hb (select (cmpi .slt col (broadcastInDim (⟨1, ![E]⟩ : Shape) ![] hz (constantI ⟨0, ![]⟩ 32 0#32)))
            (addi col (broadcastInDim (⟨1, ![E]⟩ : Shape) ![] hz (constantI ⟨0, ![]⟩ 32 (BitVec.ofNat 32 N)))) col))))))
          (Host.gather dg2 f (broadcastInDim (⟨2, ![E, 1]⟩ : Shape) ![0] hb (select (cmpi .slt col (broadcastInDim (⟨1, ![E]⟩ : Shape) ![] hz (constantI ⟨0, ![]⟩ 32 0#32)))
            (addi col (broadcastInDim (⟨1, ![E]⟩ : Shape) ![] hz (constantI ⟨0, ![]⟩ 32 (BitVec.ofNat 32 N)))) col)))))
    = subf f (mulf (broadcastInDim (⟨2, ![N, C]⟩ : Shape) ![0, 1] hNC (broadcastInDim (⟨2, ![N, 1]⟩ : Shape) ![0] hN1 dinv))
        (Host.scatterAdd ds (broadcastInDim (⟨2, ![N, C]⟩ : Shape) ![] hzero (constant ⟨0, ![]⟩ .f32 0x00000000#32)) (broadcastInDim (⟨2, ![E, 1]⟩ : Shape) ![0] hb row)
          (Host.gather dg2 (mulf (broadcastInDim (⟨2, ![N, C]⟩ : Shape) ![0, 1] hNC (broadcastInDim (⟨2, ![N, 1]⟩ : Shape) ![0] hN1 dinv)) f) (broadcastInDim (⟨2, ![E, 1]⟩ : Shape) ![0] hb (select (cmpi .slt col (broadcastInDim (⟨1, ![E]⟩ : Shape) ![] hz (constantI ⟨0, ![]⟩ 32 0#32)))
            (addi col (broadcastInDim (⟨1, ![E]⟩ : Shape) ![] hz (constantI ⟨0, ![]⟩ 32 (BitVec.ofNat 32 N)))) col))))) := by
  funext i
  obtain ⟨n, c, rfl⟩ : ∃ n c, i = ix2 n c := ⟨i 0, i 1, eq_ix2 i⟩
  obtain ⟨a, ha⟩ := hd (ix1 n)
  rw [subf_apply, subf_apply, mulf_apply, rows_apply, scatterAdd_apply, scatterAdd_apply, zeros_apply, ha]
  refine sub_zero_add_sum _ _ a _ _
    (gather_scaled_real hN ds s1 s2 s3 s4 dg1 a1 a2 a3 a4 a5 a6 a7 dg2 b1 b2 b3 b4 b5 b6 b7 dinv f row col hz hb hzero
      hEC hN1 hNC hd hf) (fun j hj => ?_)
  obtain ⟨e, k, rfl⟩ : ∃ e k, j = ix2 e k := ⟨j 0, j 1, eq_ix2 j⟩
  obtain ⟨hrow, -⟩ := scatter_rows_lands_rowOf hN ds s1 s2 s3 s4 row hb e k n c (Finset.mem_filter.mp hj).2
  rw [mulf_apply, stretch_apply, column_apply, mulf_apply, gather_vec_apply hN dg1 a1 a2 a3 a4 a5 a6 a7,
    gather_vec_apply hN dg1 a1 a2 a3 a4 a5 a6 a7, gather_rows_apply hN dg2 b1 b2 b3 b4 b5 b6 b7,
    gather_rows_apply hN dg2 b1 b2 b3 b4 b5 b6 b7, mulf_apply, rows_apply, hrow, ha, mul_assoc]

/-- THE STEP KEEPS AN ARRAY REAL-VALUED: for real-valued weights and features every entry of the step's result is a
    real number (so the step can be applied again). -/
theorem lap_real {N E C : Nat} (hN : 0 < N)
    (ds : ScatterDims ⟨2, ![N, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (dg1 : GatherDims ⟨1, ![N]⟩ ⟨2, ![E, 1]⟩ ⟨1, ![E]⟩)
    (a1 : dg1.offsetDims = []) (a2 : dg1.collapsedSliceDims = [0]) (a3 : dg1.operandBatchingDims = [])
    (a4 : dg1.startIndicesBatchingDims = []) (a5 : dg1.startIndexMap = [0]) (a6 : dg1.indexVectorDim = 1)
    (a7 : dg1.sliceSizes = ![1])
    (dg2 : GatherDims ⟨2, ![N, C]⟩ ⟨2, ![E, 1]⟩ ⟨2, ![E, C]⟩)
    (b1 : dg2.offsetDims = [1]) (b2 : dg2.collapsedSliceDims = [0]) (b3 : dg2.operandBatchingDims = [])
    (b4 : dg2.startIndicesBatchingDims = []) (b5 : dg2.startIndexMap = [0]) (b6 : dg2.indexVectorDim = 1)
    (b7 : dg2.sliceSizes = ![1, C])
    (dinv : FVec Ideal ⟨1, ![N]⟩ .f32) (f : FVec Ideal ⟨2, ![N, C]⟩ .f32) (row col : IVec ⟨1, ![E]⟩ 32)
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (hzero : (⟨0, ![]⟩ : Shape).BroadcastsInDim ⟨2, ![N, C]⟩ (![] : Fin 0 → Fin 2))
    (hEC : (⟨2, ![E, 1]⟩ : Shape).BroadcastsInDim ⟨2, ![E, C]⟩ (![0, 1] : Fin 2 → Fin 2))
    (hN1 : (⟨1, ![N]⟩ : Shape).BroadcastsInDim ⟨2, ![N, 1]⟩ (![0] : Fin 1 → Fin 2))
    (hNC : (⟨2, ![N, 1]⟩ : Shape).BroadcastsInDim ⟨2, ![N, C]⟩ (![0, 1] : Fin 2 → Fin 2))
    (hd : ∀ i, ∃ r : ℝ, dinv i = (r : EReal)) (hf : ∀ i, ∃ r : ℝ, f i = (r : EReal)) (i : (⟨2, ![N, C]⟩ : Shape).Idx) :
    ∃ r : ℝ, (subf f (mulf (broadcastInDim (⟨2, ![N, C]⟩ : Shape) ![0, 1] hNC (broadcastInDim (⟨2, ![N, 1]⟩ : Shape) ![0] hN1 dinv))
        (Host.scatterAdd ds (broadcastInDim (⟨2, ![N, C]⟩ : Shape) ![] hzero (constant ⟨0, ![]⟩ .f32 0x00000000#32)) (broadcastInDim (⟨2, ![E, 1]⟩ : Shape) ![0] hb row)
          (Host.gather dg2 (mulf (broadcastInDim (⟨2, ![N, C]⟩ : Shape) ![0, 1] hNC (broadcastInDim (⟨2, ![N, 1]⟩ : Shape) ![0] hN1 dinv)) f) (broadcastInDim (⟨2, ![E, 1]⟩ : Shape) ![0] hb (select (cmpi .slt col (broadcastInDim (⟨1, ![E]⟩ : Shape) ![] hz (constantI ⟨0, ![]⟩ 32 0#32)))
            (addi col (broadcastInDim (⟨1, ![E]⟩ : Shape) ![] hz (constantI ⟨0, ![]⟩ 32 (BitVec.ofNat 32 N)))) col)))))) i = (r : EReal) := by
  obtain ⟨n, c, rfl⟩ : ∃ n c, i = ix2 n c := ⟨i 0, i 1, eq_ix2 i⟩
  obtain ⟨a, ha⟩ := hd (ix1 n)
  obtain ⟨x, hx⟩ := hf (ix2 n c)
  obtain ⟨t, ht⟩ := sum_real (Finset.univ.filter (fun j => ds.resultIdx? j (broadcastInDim (⟨2, ![E, 1]⟩ : Shape) ![0] hb row) = some (ix2 n c))) _
    (gather_scaled_real hN ds s1 s2 s3 s4 dg1 a1 a2 a3 a4 a5 a6 a7 dg2 b1 b2 b3 b4 b5 b6 b7 dinv f row col hz hb hzero
      hEC hN1 hNC hd hf)
  rw [subf_apply, mulf_apply, rows_apply, scatterAdd_apply, zeros_apply, ha, hx, ht, zero_add, ← EReal.coe_mul,
    ← EReal.coe_sub]
  exact ⟨_, rfl⟩

end Step

end Idealize.Laplacian
-- ==== Proof.KernelHost.lean ====
/-
  THE HOST OPERATIONS ON THE ARGUMENTS, READ AT AN INDEX.

  Before and between its two regions the program re-lays its weight arguments on the host: it transposes the dense
  weights (stored `[out, in]`) to `[in, out]`, gives each bias vector a leading unit axis, and FOLDS the head's weight
  `W3 : [64, 192]` with three constant coefficients into one `64 × 64` matrix per feature array,

      A (c, o) = ((0 + t0 · W3 (o, c)) + t1 · W3 (o, 64 + c)) + t2 · W3 (o, 128 + c),

  the three column blocks of `W3` cut out, transposed, scaled by a broadcast scalar and added from a zero array, in that
  association. It also forms the node weights from the degrees, `d ↦ (d > 0 ? 1/√d : 0)`. This file reads each of these
  composed terms at an index, on the extended reals.
-/
import proofs.«163378_j7138235646046_2_alg».proof.KernelIdeal
import proofs.«163378_j7138235646046_2_alg».proof.Proof.Spec
import proofs.«163378_j7138235646046_2_alg».proof.Proof.LibLaplacian
import Idealize.ShloMosaic.Lib.Pipeline.Value
import Idealize.ShloMosaic.Lib.ValueLayout
import Idealize.ShloMosaic.Lib.ValueIdx
import Idealize.ShloMosaic.Lib.IdealHost

namespace Cert.KernelIdeal.HostValue

open Idealize.ShloMosaic Idealize.ShloMosaic.ValueIdx Cert.KernelIdeal

variable [Facts₀]
open Facts₀

/-! ## The folded weights -/

/-- A float constant broadcast from a scalar reads, at every index, the extended real its word denotes. -/
theorem splat_apply {s : Shape} (h : S_.BroadcastsInDim s (![] : Fin 0 → Fin s.rank)) (b : BitVec 32) (i : s.Idx) :
    broadcastInDim s ![] h (constant (F := Ideal) S_ .f32 b) i = Ideal.ofBits .f32 b := rfl

/-- THE FOLD, for any three coefficient words: the three column blocks of `W3`, each transposed and scaled by its
    broadcast coefficient, added from the zero array left to right, are `foldW` of the coefficients' values. -/
theorem fold_eq (b0 b1 b2 : BitVec 32) (x6 : FVec Ideal S64x192 .f32) :
    addf (addf (addf (broadcastInDim S64x64 ![] bcast_S_S64x64 (constant S_ .f32 0x00000000#32))
          (mulf (broadcastInDim S64x64 ![] bcast_S_S64x64 (constant S_ .f32 b0))
            (transpose S64x64 [1, 0] (extractStridedSlice S64x64 ![0, 0] x6 slices_S64x192_S64x64_0_0)
              transposes_S64x64_S64x64_1_0)))
        (mulf (broadcastInDim S64x64 ![] bcast_S_S64x64 (constant S_ .f32 b1))
          (transpose S64x64 [1, 0] (extractStridedSlice S64x64 ![0, 64] x6 slices_S64x192_S64x64_0_64)
            transposes_S64x64_S64x64_1_0)))
      (mulf (broadcastInDim S64x64 ![] bcast_S_S64x64 (constant S_ .f32 b2))
        (transpose S64x64 [1, 0] (extractStridedSlice S64x64 ![0, 128] x6 slices_S64x192_S64x64_0_128)
          transposes_S64x64_S64x64_1_0))
    = Cert.Spec.foldW (Ideal.ofBits .f32 b0) (Ideal.ofBits .f32 b1) (Ideal.ofBits .f32 b2) x6 := by
  funext i
  obtain ⟨c, o, rfl⟩ : ∃ c o, i = ix2 c o := ⟨i 0, i 1, eq_ix2 i⟩
  rw [addf_apply, addf_apply, addf_apply, mulf_apply, mulf_apply, mulf_apply, splat_apply, splat_apply, splat_apply,
    splat_apply, transpose_ix2_apply, transpose_ix2_apply, transpose_ix2_apply,
    slice2_axis1_apply 0 x6 _ o c ⟨c.val, by have := c.isLt; omega⟩ (Nat.zero_add _).symm,
    slice2_axis1_apply 64 x6 _ o c ⟨64 + c.val, by have := c.isLt; omega⟩ rfl,
    slice2_axis1_apply 128 x6 _ o c ⟨128 + c.val, by have := c.isLt; omega⟩ rfl, Ideal.ofBits_zero_f32]
  rfl

/-- The folded weight of the first feature array (coefficients 3, 0, 0). -/
theorem foldA0 (x6 : FVec Ideal S64x192 .f32) :
    addf (addf (addf (broadcastInDim S64x64 ![] bcast_S_S64x64 (constant S_ .f32 0x00000000#32))
          (mulf (broadcastInDim S64x64 ![] bcast_S_S64x64 (constant S_ .f32 0x40400000#32))
            (transpose S64x64 [1, 0] (extractStridedSlice S64x64 ![0, 0] x6 slices_S64x192_S64x64_0_0)
              transposes_S64x64_S64x64_1_0)))
        (mulf (broadcastInDim S64x64 ![] bcast_S_S64x64 (constant S_ .f32 0x00000000#32))
          (transpose S64x64 [1, 0] (extractStridedSlice S64x64 ![0, 64] x6 slices_S64x192_S64x64_0_64)
            transposes_S64x64_S64x64_1_0)))
      (mulf (broadcastInDim S64x64 ![] bcast_S_S64x64 (constant S_ .f32 0x00000000#32))
        (transpose S64x64 [1, 0] (extractStridedSlice S64x64 ![0, 128] x6 slices_S64x192_S64x64_0_128)
          transposes_S64x64_S64x64_1_0))
    = Cert.Spec.foldW (Ideal.ofBits .f32 0x40400000#32) (Ideal.ofBits .f32 0x00000000#32)
        (Ideal.ofBits .f32 0x00000000#32) x6 :=
  fold_eq _ _ _ x6

/-- The folded weight of the second feature array (coefficients −3, 3, 0). -/
theorem foldA1 (x6 : FVec Ideal S64x192 .f32) :
    addf (addf (addf (broadcastInDim S64x64 ![] bcast_S_S64x64 (constant S_ .f32 0x00000000#32))
          (mulf (broadcastInDim S64x64 ![] bcast_S_S64x64 (constant S_ .f32 0xC0400000#32))
            (transpose S64x64 [1, 0] (extractStridedSlice S64x64 ![0, 0] x6 slices_S64x192_S64x64_0_0)
              transposes_S64x64_S64x64_1_0)))
        (mulf (broadcastInDim S64x64 ![] bcast_S_S64x64 (constant S_ .f32 0x40400000#32))
          (transpose S64x64 [1, 0] (extractStridedSlice S64x64 ![0, 64] x6 slices_S64x192_S64x64_0_64)
            transposes_S64x64_S64x64_1_0)))
      (mulf (broadcastInDim S64x64 ![] bcast_S_S64x64 (constant S_ .f32 0x00000000#32))
        (transpose S64x64 [1, 0] (extractStridedSlice S64x64 ![0, 128] x6 slices_S64x192_S64x64_0_128)
          transposes_S64x64_S64x64_1_0))
    = Cert.Spec.foldW (Ideal.ofBits .f32 0xC0400000#32) (Ideal.ofBits .f32 0x40400000#32)
        (Ideal.ofBits .f32 0x00000000#32) x6 :=
  fold_eq _ _ _ x6

/-- The folded weight of the third feature array (coefficients 3/4, −3/2, 3/4). -/
theorem foldA2 (x6 : FVec Ideal S64x192 .f32) :
    addf (addf (addf (broadcastInDim S64x64 ![] bcast_S_S64x64 (constant S_ .f32 0x00000000#32))
          (mulf (broadcastInDim S64x64 ![] bcast_S_S64x64 (constant S_ .f32 0x3F400000#32))
            (transpose S64x64 [1, 0] (extractStridedSlice S64x64 ![0, 0] x6 slices_S64x192_S64x64_0_0)
              transposes_S64x64_S64x64_1_0)))
        (mulf (broadcastInDim S64x64 ![] bcast_S_S64x64 (constant S_ .f32 0xBFC00000#32))
          (transpose S64x64 [1, 0] (extractStridedSlice S64x64 ![0, 64] x6 slices_S64x192_S64x64_0_64)
            transposes_S64x64_S64x64_1_0)))
      (mulf (broadcastInDim S64x64 ![] bcast_S_S64x64 (constant S_ .f32 0x3F400000#32))
        (transpose S64x64 [1, 0] (extractStridedSlice S64x64 ![0, 128] x6 slices_S64x192_S64x64_0_128)
          transposes_S64x64_S64x64_1_0))
    = Cert.Spec.foldW (Ideal.ofBits .f32 0x3F400000#32) (Ideal.ofBits .f32 0xBFC00000#32)
        (Ideal.ofBits .f32 0x3F400000#32) x6 :=
  fold_eq _ _ _ x6

/-! ## The re-laid small operands -/

/-- The first dense weight transposed reads, at `(j, k)`, the argument at `(k, j)`. -/
theorem v14_apply (x2 : FVec Ideal S64x128 .f32) (j : Fin 128) (k : Fin 64) :
    transpose S128x64 [1, 0] x2 transposes_S64x128_S128x64_1_0 (ix2 j k) = x2 (ix2 k j) :=
  transpose_ix2_apply x2 _ j k

/-- The second dense weight transposed reads, at `(j, k)`, the argument at `(k, j)`. -/
theorem v15_apply (x4 : FVec Ideal S64x64 .f32) (j : Fin 64) (k : Fin 64) :
    transpose S64x64 [1, 0] x4 transposes_S64x64_S64x64_1_0 (ix2 j k) = x4 (ix2 k j) :=
  transpose_ix2_apply x4 _ j k

/-- A bias vector given a leading unit axis reads, at `(u, k)`, the vector at `k`. -/
theorem v16_apply (x : FVec Ideal S64 .f32) (u : Fin 1) (k : Fin 64) :
    shapeCast S1x64 x shapeCasts_S64_S1x64 (ix2 u k) = x (ix1 k) :=
  shapeCast_a_1a_apply x _ u k

/-- The second bias vector likewise. -/
theorem v17_apply (x : FVec Ideal S64 .f32) (u : Fin 1) (k : Fin 64) :
    shapeCast S1x64 x shapeCasts_S64_S1x64 (ix2 u k) = x (ix1 k) :=
  v16_apply x u k

/-- The head's hidden bias likewise. -/
theorem v95_apply (x : FVec Ideal S64 .f32) (u : Fin 1) (k : Fin 64) :
    shapeCast S1x64 x shapeCasts_S64_S1x64 (ix2 u k) = x (ix1 k) :=
  v16_apply x u k

/-- The head's output weight transposed reads, at `(k, o)`, the argument at `(o, k)`. -/
theorem v96_apply (x8 : FVec Ideal S2x64 .f32) (k : Fin 64) (o : Fin 2) :
    transpose S64x2 [1, 0] x8 transposes_S2x64_S64x2_1_0 (ix2 k o) = x8 (ix2 o k) :=
  transpose_ix2_apply x8 _ k o

/-- The head's output bias given a leading unit axis reads, at `(u, o)`, the vector at `o`. -/
theorem v97_apply (x : FVec Ideal S2 .f32) (u : Fin 1) (o : Fin 2) :
    shapeCast S1x2 x shapeCasts_S2_S1x2 (ix2 u o) = x (ix1 o) :=
  shapeCast_a_1a_apply x _ u o

/-! ## The node weights are real numbers -/

/-- THE NODE WEIGHTS ARE REAL, whatever the degrees: `select (deg > 0) (1 / sqrt deg) 0` with the constants broadcast as
    printed (the callee converts its scalar zero by the identity) is a real number at every index, for ANY array
    `deg`. -/
theorem dinv_real_of (deg : FVec Ideal S100000 .f32) (i : S100000.Idx) :
    ∃ r : ℝ, select (cmpf .ogt deg (broadcastInDim S100000 ![] bcast_S_S100000 (constant S_ .f32 0x00000000#32)))
        (Host.divf (broadcastInDim S100000 ![] bcast_S_S100000 (constant S_ .f32 0x3F800000#32)) (Host.sqrt deg))
        (broadcastInDim S100000 ![] bcast_S_S100000 (id (constant S_ .f32 0x00000000#32))) i = (r : EReal) :=
  Idealize.Laplacian.weight_real deg bcast_S_S100000 bcast_S_S100000 bcast_S_S100000 i

/-- The degrees as printed: the ones scattered into zeros at the column of the first row of the edge list. -/
noncomputable def degOf (x1 : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0
      (shapeCast S1600000 (extractStridedSlice S1x1600000 ![0, 0] x1 slices_S2x1600000_S1x1600000_0_0)
        shapeCasts_S1x1600000_S1600000))
    (broadcastInDim S1600000 ![] bcast_S_S1600000 (constant S_ .f32 0x3F800000#32))

/-- THE NODE WEIGHTS OF THE PROGRAM ARE REAL: the printed weight array, as a function of the edge list, is a real number
    at every index. -/
theorem dinv_real (x1 : IVec S2x1600000 32) (i : S100000.Idx) :
    ∃ r : ℝ, select (cmpf .ogt (degOf x1) (broadcastInDim S100000 ![] bcast_S_S100000 (constant S_ .f32 0x00000000#32)))
        (Host.divf (broadcastInDim S100000 ![] bcast_S_S100000 (constant S_ .f32 0x3F800000#32)) (Host.sqrt (degOf x1)))
        (broadcastInDim S100000 ![] bcast_S_S100000 (id (constant S_ .f32 0x00000000#32))) i = (r : EReal) :=
  dinv_real_of (degOf x1) i

end Cert.KernelIdeal.HostValue
-- ==== Proof.KVal1.lean ====
/-
  WHAT THE SECOND REGION FINDS IN ITS WINDOWS' ARRAYS, AND THE KERNEL'S OUTPUT.

  Between the two regions the host operations apply the Laplacian step twice to the first region's output (each step
  scales by the node weights, gathers by the edges' second row, sums by their first row, scales again and subtracts), fold
  the head's weight with the three coefficient rows into three `64 × 64` matrices, and re-lay the head's bias, last weight
  and last bias. The second region's output array is then the head of those arrays, and it is the kernel's result.
-/
import proofs.«163378_j7138235646046_2_alg».proof.Proof.KVal0
import proofs.«163378_j7138235646046_2_alg».proof.Proof.Region1
import proofs.«163378_j7138235646046_2_alg».proof.Proof.KernelHost
import proofs.«163378_j7138235646046_2_alg».proof.Proof.Spec

set_option maxRecDepth 16384

noncomputable section

namespace Cert.KernelIdeal.HostRun

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first region's output as the kernel's host operations see it. -/
abbrev h0K (c : Dev nD) : FVec Ideal S100000x64 .f32 :=
  (Region0.G (m ((c : Thread nD τ).loc main_arg0))
        (transpose S128x64 [1, 0] (m ((c : Thread nD τ).loc main_arg2)) transposes_S64x128_S128x64_1_0)
        (shapeCast S1x64 (m ((c : Thread nD τ).loc main_arg3)) shapeCasts_S64_S1x64)
        (transpose S64x64 [1, 0] (m ((c : Thread nD τ).loc main_arg4)) transposes_S64x64_S64x64_1_0)
        (shapeCast S1x64 (m ((c : Thread nD τ).loc main_arg5)) shapeCasts_S64_S1x64))

set_option maxHeartbeats 16000000 in
theorem W5_v18 (c : Dev nD) : W5 m ρ c (Proc.devRef .tc main_v18) = h0K m c := by
  show StableHlo.after hostOps1 (W4 m ρ c) (Proc.devRef .tc main_v18) = _
  after_results_simp
  exact W4_v18 m ρ c

set_option maxHeartbeats 16000000 in
theorem W5_v35 (c : Dev nD) : W5 m ρ c (Proc.devRef .tc main_v35)
    = lapK (dinvK (m ((c : Thread nD τ).loc main_arg1))) (rowK (m ((c : Thread nD τ).loc main_arg1))) (colK (m ((c : Thread nD τ).loc main_arg1))) (h0K m c) := by
  show StableHlo.after hostOps1 (W4 m ρ c) (Proc.devRef .tc main_v35) = _
  after_results_simp
  rw [W4_v18, W4_v13, W4_v1, W4_v3]
  rfl

set_option maxHeartbeats 16000000 in
theorem W5_v52 (c : Dev nD) : W5 m ρ c (Proc.devRef .tc main_v52)
    = lapK (dinvK (m ((c : Thread nD τ).loc main_arg1))) (rowK (m ((c : Thread nD τ).loc main_arg1))) (colK (m ((c : Thread nD τ).loc main_arg1)))
        (lapK (dinvK (m ((c : Thread nD τ).loc main_arg1))) (rowK (m ((c : Thread nD τ).loc main_arg1))) (colK (m ((c : Thread nD τ).loc main_arg1))) (h0K m c)) := by
  show StableHlo.after hostOps1 (W4 m ρ c) (Proc.devRef .tc main_v52) = _
  after_results_simp
  rw [W4_v18, W4_v13, W4_v1, W4_v3]
  rfl

set_option maxHeartbeats 16000000 in
theorem W5_v68 (c : Dev nD) : W5 m ρ c (Proc.devRef .tc main_v68)
    = Cert.Spec.foldW (Ideal.ofBits .f32 0x40400000#32) (Ideal.ofBits .f32 0x00000000#32) (Ideal.ofBits .f32 0x00000000#32) (m ((c : Thread nD τ).loc main_arg6)) := by
  show StableHlo.after hostOps1 (W4 m ρ c) (Proc.devRef .tc main_v68) = _
  after_results_simp
  rw [W4_arg6]
  exact HostValue.fold_eq 0x40400000#32 0x00000000#32 0x00000000#32 _

set_option maxHeartbeats 16000000 in
theorem W5_v81 (c : Dev nD) : W5 m ρ c (Proc.devRef .tc main_v81)
    = Cert.Spec.foldW (Ideal.ofBits .f32 0xC0400000#32) (Ideal.ofBits .f32 0x40400000#32) (Ideal.ofBits .f32 0x00000000#32) (m ((c : Thread nD τ).loc main_arg6)) := by
  show StableHlo.after hostOps1 (W4 m ρ c) (Proc.devRef .tc main_v81) = _
  after_results_simp
  rw [W4_arg6]
  exact HostValue.fold_eq 0xC0400000#32 0x40400000#32 0x00000000#32 _

set_option maxHeartbeats 16000000 in
theorem W5_v94 (c : Dev nD) : W5 m ρ c (Proc.devRef .tc main_v94)
    = Cert.Spec.foldW (Ideal.ofBits .f32 0x3F400000#32) (Ideal.ofBits .f32 0xBFC00000#32) (Ideal.ofBits .f32 0x3F400000#32) (m ((c : Thread nD τ).loc main_arg6)) := by
  show StableHlo.after hostOps1 (W4 m ρ c) (Proc.devRef .tc main_v94) = _
  after_results_simp
  rw [W4_arg6]
  exact HostValue.fold_eq 0x3F400000#32 0xBFC00000#32 0x3F400000#32 _

set_option maxHeartbeats 16000000 in
theorem W5_v95 (c : Dev nD) : W5 m ρ c (Proc.devRef .tc main_v95) = shapeCast S1x64 (m ((c : Thread nD τ).loc main_arg7)) shapeCasts_S64_S1x64 := by
  show StableHlo.after hostOps1 (W4 m ρ c) (Proc.devRef .tc main_v95) = _
  after_results_simp
  rw [W4_arg7]
  rfl

set_option maxHeartbeats 16000000 in
theorem W5_v96 (c : Dev nD) : W5 m ρ c (Proc.devRef .tc main_v96)
    = transpose S64x2 [1, 0] (m ((c : Thread nD τ).loc main_arg8)) transposes_S2x64_S64x2_1_0 := by
  show StableHlo.after hostOps1 (W4 m ρ c) (Proc.devRef .tc main_v96) = _
  after_results_simp
  rw [W4_arg8]

set_option maxHeartbeats 16000000 in
theorem W5_v97 (c : Dev nD) : W5 m ρ c (Proc.devRef .tc main_v97) = shapeCast S1x2 (m ((c : Thread nD τ).loc main_arg9)) shapeCasts_S2_S1x2 := by
  show StableHlo.after hostOps1 (W4 m ρ c) (Proc.devRef .tc main_v97) = _
  after_results_simp
  rw [W4_arg9]
  rfl

/-- THE KERNEL'S RESULT BUFFER AT THE RETURN: the second region's function of the arrays the host operations prepared. -/
theorem out_eq (c : Dev nD) : W6 m ρ c (Proc.devRef .tc main_v98)
    = Region1.G (h0K m c)
        (lapK (dinvK (m ((c : Thread nD τ).loc main_arg1))) (rowK (m ((c : Thread nD τ).loc main_arg1))) (colK (m ((c : Thread nD τ).loc main_arg1))) (h0K m c))
        (lapK (dinvK (m ((c : Thread nD τ).loc main_arg1))) (rowK (m ((c : Thread nD τ).loc main_arg1))) (colK (m ((c : Thread nD τ).loc main_arg1)))
          (lapK (dinvK (m ((c : Thread nD τ).loc main_arg1))) (rowK (m ((c : Thread nD τ).loc main_arg1))) (colK (m ((c : Thread nD τ).loc main_arg1))) (h0K m c)))
        (Cert.Spec.foldW (Ideal.ofBits .f32 0x40400000#32) (Ideal.ofBits .f32 0x00000000#32) (Ideal.ofBits .f32 0x00000000#32) (m ((c : Thread nD τ).loc main_arg6)))
        (Cert.Spec.foldW (Ideal.ofBits .f32 0xC0400000#32) (Ideal.ofBits .f32 0x40400000#32) (Ideal.ofBits .f32 0x00000000#32) (m ((c : Thread nD τ).loc main_arg6)))
        (Cert.Spec.foldW (Ideal.ofBits .f32 0x3F400000#32) (Ideal.ofBits .f32 0xBFC00000#32) (Ideal.ofBits .f32 0x3F400000#32) (m ((c : Thread nD τ).loc main_arg6)))
        (shapeCast S1x64 (m ((c : Thread nD τ).loc main_arg7)) shapeCasts_S64_S1x64)
        (transpose S64x2 [1, 0] (m ((c : Thread nD τ).loc main_arg8)) transposes_S2x64_S64x2_1_0)
        (shapeCast S1x2 (m ((c : Thread nD τ).loc main_arg9)) shapeCasts_S2_S1x2) := by
  refine (W6_arr m ρ c 9).trans ((Region1.final (V5 m ρ) c).trans ?_)
  show Region1.G (W5 m ρ c (Proc.devRef .tc main_v18)) (W5 m ρ c (Proc.devRef .tc main_v35)) (W5 m ρ c (Proc.devRef .tc main_v52))
    (W5 m ρ c (Proc.devRef .tc main_v68)) (W5 m ρ c (Proc.devRef .tc main_v81)) (W5 m ρ c (Proc.devRef .tc main_v94))
    (W5 m ρ c (Proc.devRef .tc main_v95)) (W5 m ρ c (Proc.devRef .tc main_v96)) (W5 m ρ c (Proc.devRef .tc main_v97)) = _
  rw [W5_v18, W5_v35, W5_v52, W5_v68, W5_v81, W5_v94, W5_v95, W5_v96, W5_v97]

end Cert.KernelIdeal.HostRun

end
-- ==== Proof.KernelSpec.lean ====
/-
  THE TWO REGIONS' RESULTS ARE THE SPECIFICATION'S FUNCTIONS OF THE ARGUMENTS.

  Each region's result is an index formula over the arrays its windows stage. Those arrays are the program's arguments
  re-laid on the host: a dense weight stored `[out, in]` is transposed to `[in, out]`, a bias vector gets a leading unit
  axis. Reading the re-laid arrays at an index gives back the arguments at the transposed index (and the bias at its one
  coordinate), so the first region's formula is the two dense layers `mlp` of the arguments and the second region's is the
  output head `headOf`.
-/
import proofs.«163378_j7138235646046_2_alg».proof.Proof.Region0
import proofs.«163378_j7138235646046_2_alg».proof.Proof.Region1
import proofs.«163378_j7138235646046_2_alg».proof.Proof.KernelHost
import proofs.«163378_j7138235646046_2_alg».proof.Proof.Spec

set_option maxRecDepth 16384

noncomputable section

namespace Cert.KernelIdeal.KernelSpec

open Cert.KernelIdeal Cert.KernelIdeal.HostValue Idealize.ShloMosaic Idealize.ShloMosaic.ValueIdx
open Cert.KernelIdeal.Facts₀

/-- THE FIRST REGION COMPUTES THE TWO DENSE LAYERS: its index formula over the transposed weights and the biases with a
    leading unit axis is `mlp` of the arguments. -/
theorem G0_eq_mlp (x0 : FVec Ideal S100000x128 .f32) (x2 : FVec Ideal S64x128 .f32) (x3 : FVec Ideal S64 .f32)
    (x4 : FVec Ideal S64x64 .f32) (x5 : FVec Ideal S64 .f32) :
    Cert.KernelIdeal.Region0.G x0 (transpose S128x64 [1, 0] x2 transposes_S64x128_S128x64_1_0)
        (shapeCast S1x64 x3 shapeCasts_S64_S1x64) (transpose S64x64 [1, 0] x4 transposes_S64x64_S64x64_1_0)
        (shapeCast S1x64 x5 shapeCasts_S64_S1x64)
      = Cert.Spec.mlp x0 x2 x3 x4 x5 := by
  funext i
  obtain ⟨n, q, rfl⟩ : ∃ n q, i = ix2 n q := ⟨i 0, i 1, eq_ix2 i⟩
  show max ((∑ k : Fin 64, max ((∑ j : Fin 128, x0 (ix2 n j)
        * transpose S128x64 [1, 0] x2 transposes_S64x128_S128x64_1_0 (ix2 j k))
        + shapeCast S1x64 x3 shapeCasts_S64_S1x64 (ix2 0 k)) 0
        * transpose S64x64 [1, 0] x4 transposes_S64x64_S64x64_1_0 (ix2 k q))
      + shapeCast S1x64 x5 shapeCasts_S64_S1x64 (ix2 0 q)) 0
    = max ((∑ k : Fin 64, max ((∑ j : Fin 128, x0 (ix2 n j) * x2 (ix2 k j)) + x3 (ix1 k)) 0 * x4 (ix2 q k))
      + x5 (ix1 q)) 0
  rw [v16_apply x5 0 q]
  refine congrArg (fun s => max (s + x5 (ix1 q)) 0) (Finset.sum_congr rfl fun k _ => ?_)
  rw [v15_apply x4 k q, v16_apply x3 0 k]
  refine congrArg (fun s => max (s + x3 (ix1 k)) 0 * x4 (ix2 q k)) (Finset.sum_congr rfl fun j _ => ?_)
  rw [v14_apply x2 j k]

/-- THE SECOND REGION COMPUTES THE OUTPUT HEAD: its index formula over the hidden bias with a leading unit axis, the
    transposed last weight and the last bias with a leading unit axis is `headOf` of the arguments. -/
theorem G1_eq_head (f0 f1 f2 : FVec Ideal S100000x64 .f32) (A0 A1 A2 : FVec Ideal S64x64 .f32)
    (x7 : FVec Ideal S64 .f32) (x8 : FVec Ideal S2x64 .f32) (x9 : FVec Ideal S2 .f32) :
    Cert.KernelIdeal.Region1.G f0 f1 f2 A0 A1 A2 (shapeCast S1x64 x7 shapeCasts_S64_S1x64)
        (transpose S64x2 [1, 0] x8 transposes_S2x64_S64x2_1_0) (shapeCast S1x2 x9 shapeCasts_S2_S1x2)
      = Cert.Spec.headOf f0 f1 f2 A0 A1 A2 x7 x8 x9 := by
  funext i
  obtain ⟨n, o, rfl⟩ : ∃ n o, i = ix2 n o := ⟨i 0, i 1, eq_ix2 i⟩
  show (∑ k : Fin 64, max ((((∑ c : Fin 64, f0 (ix2 n c) * A0 (ix2 c k)) + ∑ c : Fin 64, f1 (ix2 n c) * A1 (ix2 c k))
        + ∑ c : Fin 64, f2 (ix2 n c) * A2 (ix2 c k)) + shapeCast S1x64 x7 shapeCasts_S64_S1x64 (ix2 0 k)) 0
        * transpose S64x2 [1, 0] x8 transposes_S2x64_S64x2_1_0 (ix2 k o))
      + shapeCast S1x2 x9 shapeCasts_S2_S1x2 (ix2 0 o)
    = (∑ k : Fin 64, max ((((∑ c : Fin 64, f0 (ix2 n c) * A0 (ix2 c k)) + ∑ c : Fin 64, f1 (ix2 n c) * A1 (ix2 c k))
        + ∑ c : Fin 64, f2 (ix2 n c) * A2 (ix2 c k)) + x7 (ix1 k)) 0 * x8 (ix2 o k)) + x9 (ix1 o)
  rw [v97_apply x9 0 o]
  refine congrArg (· + x9 (ix1 o)) (Finset.sum_congr rfl fun k _ => ?_)
  rw [v95_apply x7 0 k, v96_apply x8 k o]

end Cert.KernelIdeal.KernelSpec

end
-- ==== Proof.LapBridge.lean ====
/-
  THE TWO PROGRAMS' GRAPH STEPS MEET.

  Both programs cut the same two rows out of the edge list, count degrees by the same scatter-add of ones and form the same
  node weights `d ↦ (d > 0 ? 1/√d : 0)`: the printed operations are the same, only each program names its own copies of
  the shapes and dimension numbers, so those terms are equal by unfolding. They differ in how they spell one Laplacian
  step: the reference scales each gathered row by the edge weight `dinv[row] · dinv[col]` before the segment sum, the kernel
  scales the table by `dinv` before the gather and the segment sum by `dinv` after it. For real-valued weights and features
  the two spellings are the same array (the factor `dinv[row[e]]` is common to the sum for a row and comes out of it), and
  the step keeps an array real-valued, so it can be applied twice.
-/
import proofs.«163378_j7138235646046_2_alg».proof.Proof.KVal0
import proofs.«163378_j7138235646046_2_alg».proof.Proof.RefReadP
import proofs.«163378_j7138235646046_2_alg».proof.Proof.LibLaplacian
import proofs.«163378_j7138235646046_2_alg».proof.Proof.KernelHost

set_option maxRecDepth 16384

noncomputable section

namespace Cert.LapBridge

open Idealize.ShloMosaic Idealize.ShloMosaic.ValueIdx
open Cert.KernelIdeal.HostRun (rowK colK degK dinvK lapK)
open Cert.ReferenceIdeal (Read.val_main_v1 Read.val_main_v3 Read.val_main_v13 Read.val_main_v40 Read.val_main_v56
  Read.val_main_v73)

/-! ## The graph terms of the two programs are the same terms -/

/-- The edges' first row: the same slice and reshape in both programs. -/
theorem rowK_eq (x1 : IVec Cert.KernelIdeal.S2x1600000 32) : rowK x1 = Cert.ReferenceIdeal.Read.val_main_v1 (F := Ideal) x1 := rfl

/-- The edges' second row likewise. -/
theorem colK_eq (x1 : IVec Cert.KernelIdeal.S2x1600000 32) : colK x1 = Cert.ReferenceIdeal.Read.val_main_v3 (F := Ideal) x1 := rfl

/-- The node weights: the same scatter-add of ones, comparison, root, quotient and select in both programs. -/
theorem dinvK_eq (x1 : IVec Cert.KernelIdeal.S2x1600000 32) : dinvK x1 = Cert.ReferenceIdeal.Read.val_main_v13 (F := Ideal) x1 := rfl

/-- The node weights are real numbers, whatever the edge list. -/
theorem dinvK_real (x1 : IVec Cert.KernelIdeal.S2x1600000 32) (i : Cert.KernelIdeal.S100000.Idx) : ∃ r : ℝ, dinvK x1 i = (r : EReal) :=
  Cert.KernelIdeal.HostValue.dinv_real_of (degK x1) i

/-! ## One step, in the reference's spelling and in the kernel's -/

/-- The reference's spelling of one step over weights `dinv`, rows `row`, columns `col` and features `f`: the gathered rows
    scaled by the edge weights, summed by row, subtracted. -/
def lapR (dinv : FVec Ideal Cert.KernelIdeal.S100000 .f32) (row col : IVec Cert.KernelIdeal.S1600000 32)
    (f : FVec Ideal Cert.KernelIdeal.S100000x64 .f32) : FVec Ideal Cert.KernelIdeal.S100000x64 .f32 :=
  subf f (Host.scatterAdd Cert.ReferenceIdeal.scatter_S100000x64_S1600000x1_S1600000x64_1_0_0_1
    (broadcastInDim Cert.ReferenceIdeal.S100000x64 ![] Cert.ReferenceIdeal.Facts₀.bcast_S_S100000x64 (constant Cert.ReferenceIdeal.S_ .f32 0x00000000#32))
    (broadcastInDim Cert.ReferenceIdeal.S1600000x1 ![0] Cert.ReferenceIdeal.Facts₀.bcast_S1600000_S1600000x1_0 row)
    (mulf
      (broadcastInDim Cert.ReferenceIdeal.S1600000x64 ![0, 1] Cert.ReferenceIdeal.Facts₀.bcast_S1600000x1_S1600000x64_0_1
        (broadcastInDim Cert.ReferenceIdeal.S1600000x1 ![0] Cert.ReferenceIdeal.Facts₀.bcast_S1600000_S1600000x1_0
          (mulf
            (Host.gather Cert.ReferenceIdeal.gather_S100000_S1600000x1_S1600000_n_0_n_n_0_1_1 dinv
              (broadcastInDim Cert.ReferenceIdeal.S1600000x1 ![0] Cert.ReferenceIdeal.Facts₀.bcast_S1600000_S1600000x1_0
                (select (cmpi .slt row (broadcastInDim Cert.ReferenceIdeal.S1600000 ![] Cert.ReferenceIdeal.Facts₀.bcast_S_S1600000 (constantI Cert.ReferenceIdeal.S_ 32 0#32)))
                  (addi row (broadcastInDim Cert.ReferenceIdeal.S1600000 ![] Cert.ReferenceIdeal.Facts₀.bcast_S_S1600000 (constantI Cert.ReferenceIdeal.S_ 32 100000#32))) row)))
            (Host.gather Cert.ReferenceIdeal.gather_S100000_S1600000x1_S1600000_n_0_n_n_0_1_1 dinv
              (broadcastInDim Cert.ReferenceIdeal.S1600000x1 ![0] Cert.ReferenceIdeal.Facts₀.bcast_S1600000_S1600000x1_0
                (select (cmpi .slt col (broadcastInDim Cert.ReferenceIdeal.S1600000 ![] Cert.ReferenceIdeal.Facts₀.bcast_S_S1600000 (constantI Cert.ReferenceIdeal.S_ 32 0#32)))
                  (addi col (broadcastInDim Cert.ReferenceIdeal.S1600000 ![] Cert.ReferenceIdeal.Facts₀.bcast_S_S1600000 (constantI Cert.ReferenceIdeal.S_ 32 100000#32))) col))))))
      (Host.gather Cert.ReferenceIdeal.gather_S100000x64_S1600000x1_S1600000x64_1_0_n_n_0_1_164 f
        (broadcastInDim Cert.ReferenceIdeal.S1600000x1 ![0] Cert.ReferenceIdeal.Facts₀.bcast_S1600000_S1600000x1_0
          (select (cmpi .slt col (broadcastInDim Cert.ReferenceIdeal.S1600000 ![] Cert.ReferenceIdeal.Facts₀.bcast_S_S1600000 (constantI Cert.ReferenceIdeal.S_ 32 0#32)))
            (addi col (broadcastInDim Cert.ReferenceIdeal.S1600000 ![] Cert.ReferenceIdeal.Facts₀.bcast_S_S1600000 (constantI Cert.ReferenceIdeal.S_ 32 100000#32))) col)))))

/-- THE TWO SPELLINGS OF THE STEP AGREE for real-valued weights and features. -/
theorem lapR_eq_lapK (dinv : FVec Ideal Cert.KernelIdeal.S100000 .f32) (row col : IVec Cert.KernelIdeal.S1600000 32)
    (f : FVec Ideal Cert.KernelIdeal.S100000x64 .f32)
    (hd : ∀ i, ∃ r : ℝ, dinv i = (r : EReal)) (hf : ∀ i, ∃ r : ℝ, f i = (r : EReal)) :
    lapR dinv row col f = lapK dinv row col f :=
  Idealize.Laplacian.lap_eq (N := 100000) (E := 1600000) (C := 64) (by decide)
      Cert.KernelIdeal.scatter_S100000x64_S1600000x1_S1600000x64_1_0_0_1 rfl rfl rfl rfl
      Cert.ReferenceIdeal.gather_S100000_S1600000x1_S1600000_n_0_n_n_0_1_1 rfl rfl rfl rfl rfl rfl rfl
      Cert.KernelIdeal.gather_S100000x64_S1600000x1_S1600000x64_1_0_n_n_0_1_164 rfl rfl rfl rfl rfl rfl rfl
      dinv f row col
      Cert.KernelIdeal.Facts₀.bcast_S_S1600000 Cert.KernelIdeal.Facts₀.bcast_S1600000_S1600000x1_0 Cert.KernelIdeal.Facts₀.bcast_S_S100000x64
      Cert.ReferenceIdeal.Facts₀.bcast_S1600000x1_S1600000x64_0_1 Cert.KernelIdeal.Facts₀.bcast_S100000_S100000x1_0
      Cert.KernelIdeal.Facts₀.bcast_S100000x1_S100000x64_0_1 hd hf

/-- THE STEP KEEPS AN ARRAY REAL-VALUED (the kernel's spelling). -/
theorem lapK_real (dinv : FVec Ideal Cert.KernelIdeal.S100000 .f32) (row col : IVec Cert.KernelIdeal.S1600000 32)
    (f : FVec Ideal Cert.KernelIdeal.S100000x64 .f32)
    (hd : ∀ i, ∃ r : ℝ, dinv i = (r : EReal)) (hf : ∀ i, ∃ r : ℝ, f i = (r : EReal))
    (i : Cert.KernelIdeal.S100000x64.Idx) : ∃ r : ℝ, lapK dinv row col f i = (r : EReal) :=
  Idealize.Laplacian.lap_real (N := 100000) (E := 1600000) (C := 64) (by decide)
      Cert.KernelIdeal.scatter_S100000x64_S1600000x1_S1600000x64_1_0_0_1 rfl rfl rfl rfl
      Cert.ReferenceIdeal.gather_S100000_S1600000x1_S1600000_n_0_n_n_0_1_1 rfl rfl rfl rfl rfl rfl rfl
      Cert.KernelIdeal.gather_S100000x64_S1600000x1_S1600000x64_1_0_n_n_0_1_164 rfl rfl rfl rfl rfl rfl rfl
      dinv f row col
      Cert.KernelIdeal.Facts₀.bcast_S_S1600000 Cert.KernelIdeal.Facts₀.bcast_S1600000_S1600000x1_0 Cert.KernelIdeal.Facts₀.bcast_S_S100000x64
      Cert.ReferenceIdeal.Facts₀.bcast_S1600000x1_S1600000x64_0_1 Cert.KernelIdeal.Facts₀.bcast_S100000_S100000x1_0
      Cert.KernelIdeal.Facts₀.bcast_S100000x1_S100000x64_0_1 hd hf i

/-! ## The reference's two steps are the kernel's spelling of them -/

section Steps
variable (x0 : FVec Ideal Cert.KernelIdeal.S100000x128 .f32) (x1 : IVec Cert.KernelIdeal.S2x1600000 32) (x2 : FVec Ideal Cert.KernelIdeal.S64x128 .f32)
  (x3 : FVec Ideal Cert.KernelIdeal.S64 .f32) (x4 : FVec Ideal Cert.KernelIdeal.S64x64 .f32) (x5 : FVec Ideal Cert.KernelIdeal.S64 .f32)

/-- The reference's first step, unfolded, is its spelling of the step over the shared graph terms and the input layers'
    result. -/
theorem v56_eq_lapR : Cert.ReferenceIdeal.Read.val_main_v56 (F := Ideal) x0 x1 x2 x3 x4 x5
    = lapR (dinvK x1) (rowK x1) (colK x1) (Cert.ReferenceIdeal.Read.val_main_v40 (F := Ideal) x0 x2 x3 x4 x5) := rfl

/-- The reference's second step likewise, over the first step's result. -/
theorem v73_eq_lapR : Cert.ReferenceIdeal.Read.val_main_v73 (F := Ideal) x0 x1 x2 x3 x4 x5
    = lapR (dinvK x1) (rowK x1) (colK x1) (Cert.ReferenceIdeal.Read.val_main_v56 (F := Ideal) x0 x1 x2 x3 x4 x5) := rfl

/-- THE REFERENCE'S FIRST STEP IS THE KERNEL'S, when the input layers' result is real-valued. -/
theorem lap_ref1 (hf : ∀ i, ∃ r : ℝ, Cert.ReferenceIdeal.Read.val_main_v40 (F := Ideal) x0 x2 x3 x4 x5 i = (r : EReal)) :
    Cert.ReferenceIdeal.Read.val_main_v56 (F := Ideal) x0 x1 x2 x3 x4 x5
      = lapK (dinvK x1) (rowK x1) (colK x1) (Cert.ReferenceIdeal.Read.val_main_v40 (F := Ideal) x0 x2 x3 x4 x5) :=
  (v56_eq_lapR x0 x1 x2 x3 x4 x5).trans (lapR_eq_lapK _ _ _ _ (dinvK_real x1) hf)

/-- THE REFERENCE'S SECOND STEP IS THE KERNEL'S, when the first step's result is real-valued. -/
theorem lap_ref2 (hf : ∀ i, ∃ r : ℝ, Cert.ReferenceIdeal.Read.val_main_v56 (F := Ideal) x0 x1 x2 x3 x4 x5 i = (r : EReal)) :
    Cert.ReferenceIdeal.Read.val_main_v73 (F := Ideal) x0 x1 x2 x3 x4 x5
      = lapK (dinvK x1) (rowK x1) (colK x1) (Cert.ReferenceIdeal.Read.val_main_v56 (F := Ideal) x0 x1 x2 x3 x4 x5) :=
  (v73_eq_lapR x0 x1 x2 x3 x4 x5).trans (lapR_eq_lapK _ _ _ _ (dinvK_real x1) hf)

end Steps

end Cert.LapBridge

end
-- ==== Proof.RefValue.lean ====
/-
  The reference program's value, stage by stage, at the ideal instance: its two input layers are the specification's
  dense layers; the terms it computes more than once are the same terms; each of its three combined rows is a sum of
  three scaled terms; the row that joins them reads, in each block of 64 columns, the corresponding combined row; and
  its output is the rectified contraction of the joined row with the third weight matrix, contracted with the fourth.
-/
import proofs.«163378_j7138235646046_2_alg».proof.Proof.RefReadP
import proofs.«163378_j7138235646046_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x192, .f32⟩ : BufTy).Contents (Elt Ideal)) (x7 : (⟨S64, .f32⟩ : BufTy).Contents (Elt Ideal))
  (x8 : (⟨S2x64, .f32⟩ : BufTy).Contents (Elt Ideal)) (x9 : (⟨S2, .f32⟩ : BufTy).Contents (Elt Ideal))

/-! ## The two input layers -/

/-- The reference's two dense layers with their rectifiers are the specification's, index by index. -/
theorem ref_mlp : Read.val_main_v40 (F := Ideal) x0 x2 x3 x4 x5 = Cert.Spec.mlp x0 x2 x3 x4 x5 := by
  funext i
  have e1 : ∀ (k : Fin 64) (q : Fin 128), Read.lidx_main_v30 (Read.lidx_main_v36 i k) q = ix2 (i 0) q :=
    fun k q => funext fun a => Fin.ext (by match a with | ⟨0, _⟩ => rfl | ⟨1, _⟩ => rfl)
  have e2 : ∀ (k : Fin 64) (q : Fin 128),
      Read.idx_main_v29 (Read.ridx_main_v30 (Read.lidx_main_v36 i k) q) = ix2 k q :=
    fun k q => funext fun a => Fin.ext (by match a with | ⟨0, _⟩ => rfl | ⟨1, _⟩ => rfl)
  have e3 : ∀ k : Fin 64, Read.idx_main_v31 (Read.idx_main_v32 (Read.lidx_main_v36 i k)) = ix1 k :=
    fun k => funext fun a => Fin.ext (by match a with | ⟨0, _⟩ => rfl)
  have e4 : ∀ k : Fin 64, Read.idx_main_v35 (Read.ridx_main_v36 i k) = ix2 (i 1) k :=
    fun k => funext fun a => Fin.ext (by match a with | ⟨0, _⟩ => rfl | ⟨1, _⟩ => rfl)
  have e5 : Read.idx_main_v37 (Read.idx_main_v38 i) = ix1 (i 1) :=
    funext fun a => Fin.ext (by match a with | ⟨0, _⟩ => rfl)
  simp only [Read.val_main_v40_apply, Read.val_main_v39_apply, Read.val_main_v36_apply, Read.val_main_v38_apply,
    Read.val_main_v37_apply, Read.val_main_call2_v0_apply, Read.val_main_call2_cst_apply, Read.val_main_v34_apply,
    Read.val_main_v33_apply, Read.val_main_v30_apply, Read.val_main_v32_apply, Read.val_main_v31_apply,
    Read.val_main_call1_v0_apply, Read.val_main_call1_cst_apply, Read.val_main_v35_apply, Read.val_main_v29_apply,
    e1, e2, e3, e4, e5, Ideal.maximumf_def, Ideal.addf_def, Ideal.ofBits_def, Ideal.ofBits_zero_f32]
  rfl

/-! ## The recomputed terms are the same terms -/

/-- The second computation of the first difference is the first one. -/
theorem v92_eq : Read.val_main_v92 (F := Ideal) x0 x1 x2 x3 x4 x5 = Read.val_main_v56 (F := Ideal) x0 x1 x2 x3 x4 x5 := rfl

/-- The third computation of the first difference is the first one. -/
theorem v128_eq : Read.val_main_v128 (F := Ideal) x0 x1 x2 x3 x4 x5 = Read.val_main_v56 (F := Ideal) x0 x1 x2 x3 x4 x5 := rfl

/-- The second computation of the second difference is the first one. -/
theorem v109_eq : Read.val_main_v109 (F := Ideal) x0 x1 x2 x3 x4 x5 = Read.val_main_v73 (F := Ideal) x0 x1 x2 x3 x4 x5 := rfl

/-- The third computation of the second difference is the first one. -/
theorem v145_eq : Read.val_main_v145 (F := Ideal) x0 x1 x2 x3 x4 x5 = Read.val_main_v73 (F := Ideal) x0 x1 x2 x3 x4 x5 := rfl

/-! ## The three combined rows -/

/-- Combined row 76: the three scaled terms, added left to right. -/
theorem comb_76 (i : S100000x64.Idx) :
    Read.val_main_v76 (F := Ideal) x0 x1 x2 x3 x4 x5 i
      = (Ideal.ofBits .f32 0x40400000#32 * Read.val_main_v40 (F := Ideal) x0 x2 x3 x4 x5 i
          + Ideal.ofBits .f32 0xC0400000#32 * Read.val_main_v56 (F := Ideal) x0 x1 x2 x3 x4 x5 i)
        + Ideal.ofBits .f32 0x3F400000#32 * Read.val_main_v73 (F := Ideal) x0 x1 x2 x3 x4 x5 i := by
  rw [Read.val_main_v76_apply, Read.val_main_v59_apply, Read.val_main_v42_apply, Read.val_main_v41_apply, Read.val_main_cst_7_apply, Read.val_main_v58_apply, Read.val_main_v57_apply, Read.val_main_cst_11_apply, Read.val_main_v75_apply, Read.val_main_v74_apply, Read.val_main_cst_15_apply]
  rfl

/-- Combined row 112: the three scaled terms, added left to right. -/
theorem comb_112 (i : S100000x64.Idx) :
    Read.val_main_v112 (F := Ideal) x0 x1 x2 x3 x4 x5 i
      = (Ideal.ofBits .f32 0x00000000#32 * Read.val_main_v40 (F := Ideal) x0 x2 x3 x4 x5 i
          + Ideal.ofBits .f32 0x40400000#32 * Read.val_main_v92 (F := Ideal) x0 x1 x2 x3 x4 x5 i)
        + Ideal.ofBits .f32 0xBFC00000#32 * Read.val_main_v109 (F := Ideal) x0 x1 x2 x3 x4 x5 i := by
  rw [Read.val_main_v112_apply, Read.val_main_v95_apply, Read.val_main_v78_apply, Read.val_main_v77_apply, Read.val_main_cst_16_apply, Read.val_main_v94_apply, Read.val_main_v93_apply, Read.val_main_cst_20_apply, Read.val_main_v111_apply, Read.val_main_v110_apply, Read.val_main_cst_24_apply]
  rfl

/-- Combined row 148: the three scaled terms, added left to right. -/
theorem comb_148 (i : S100000x64.Idx) :
    Read.val_main_v148 (F := Ideal) x0 x1 x2 x3 x4 x5 i
      = (Ideal.ofBits .f32 0x00000000#32 * Read.val_main_v40 (F := Ideal) x0 x2 x3 x4 x5 i
          + Ideal.ofBits .f32 0x00000000#32 * Read.val_main_v128 (F := Ideal) x0 x1 x2 x3 x4 x5 i)
        + Ideal.ofBits .f32 0x3F400000#32 * Read.val_main_v145 (F := Ideal) x0 x1 x2 x3 x4 x5 i := by
  rw [Read.val_main_v148_apply, Read.val_main_v131_apply, Read.val_main_v114_apply, Read.val_main_v113_apply, Read.val_main_cst_25_apply, Read.val_main_v130_apply, Read.val_main_v129_apply, Read.val_main_cst_29_apply, Read.val_main_v147_apply, Read.val_main_v146_apply, Read.val_main_cst_33_apply]
  rfl

/-! ## The joined row at an index -/

/-- The joined row read in its first block of 64 columns is the first combined row. -/
theorem cat_apply_0 (n : Fin 100000) (c : Fin 64) :
    Read.val_main_v149 (F := Ideal) x0 x1 x2 x3 x4 x5 (ix2 n (⟨c.val, by omega⟩ : Fin 192))
      = Read.val_main_v76 (F := Ideal) x0 x1 x2 x3 x4 x5 (ix2 n c) := by
  unfold Read.val_main_v149
  exact concatenate_apply_piece (1 : Fin S100000x192.rank) _ _ _ 0 (by simp) S100000x64 _ rfl rfl 0 rfl (ix2 n c)
    (fun b hb => match b, hb with
      | ⟨0, _⟩, _ => rfl
      | ⟨1, _⟩, hb => absurd (Fin.ext rfl) hb)
    (Nat.zero_add _)

/-- The joined row read in its second block of 64 columns is the second combined row. -/
theorem cat_apply_1 (n : Fin 100000) (c : Fin 64) :
    Read.val_main_v149 (F := Ideal) x0 x1 x2 x3 x4 x5 (ix2 n (⟨64 + c.val, by omega⟩ : Fin 192))
      = Read.val_main_v112 (F := Ideal) x0 x1 x2 x3 x4 x5 (ix2 n c) := by
  unfold Read.val_main_v149
  exact concatenate_apply_piece (1 : Fin S100000x192.rank) _ _ _ 1 (by simp) S100000x64 _ rfl rfl 64 rfl (ix2 n c)
    (fun b hb => match b, hb with
      | ⟨0, _⟩, _ => rfl
      | ⟨1, _⟩, hb => absurd (Fin.ext rfl) hb)
    rfl

/-- The joined row read in its third block of 64 columns is the third combined row. -/
theorem cat_apply_2 (n : Fin 100000) (c : Fin 64) :
    Read.val_main_v149 (F := Ideal) x0 x1 x2 x3 x4 x5 (ix2 n (⟨128 + c.val, by omega⟩ : Fin 192))
      = Read.val_main_v148 (F := Ideal) x0 x1 x2 x3 x4 x5 (ix2 n c) := by
  unfold Read.val_main_v149
  exact concatenate_apply_piece (1 : Fin S100000x192.rank) _ _ _ 2 (by simp) S100000x64 _ rfl rfl 128 rfl (ix2 n c)
    (fun b hb => match b, hb with
      | ⟨0, _⟩, _ => rfl
      | ⟨1, _⟩, hb => absurd (Fin.ext rfl) hb)
    rfl

/-! ## The output head -/

/-- The reference's output at (n, o): the joined row contracted with the third weight matrix, plus its bias, rectified,
    contracted with the fourth weight matrix, plus its bias. -/
theorem ref_head (i : S100000x2.Idx) :
    Read.val_main_v160 (F := Ideal) x0 x1 x2 x3 x4 x5 x6 x7 x8 x9 i
      = (∑ k : Fin 64,
          max ((∑ j : Fin 192, Read.val_main_v149 (F := Ideal) x0 x1 x2 x3 x4 x5 (ix2 (i 0) j) * x6 (ix2 k j)) + x7 (ix1 k)) 0
            * x8 (ix2 (i 1) k))
        + x9 (ix1 (i 1)) := by
  have e1 : ∀ (k : Fin 64) (q : Fin 192), Read.lidx_main_v151 (Read.lidx_main_v157 i k) q = ix2 (i 0) q :=
    fun k q => funext fun a => Fin.ext (by match a with | ⟨0, _⟩ => rfl | ⟨1, _⟩ => rfl)
  have e2 : ∀ (k : Fin 64) (q : Fin 192),
      Read.idx_main_v150 (Read.ridx_main_v151 (Read.lidx_main_v157 i k) q) = ix2 k q :=
    fun k q => funext fun a => Fin.ext (by match a with | ⟨0, _⟩ => rfl | ⟨1, _⟩ => rfl)
  have e3 : ∀ k : Fin 64, Read.idx_main_v152 (Read.idx_main_v153 (Read.lidx_main_v157 i k)) = ix1 k :=
    fun k => funext fun a => Fin.ext (by match a with | ⟨0, _⟩ => rfl)
  have e4 : ∀ k : Fin 64, Read.idx_main_v156 (Read.ridx_main_v157 i k) = ix2 (i 1) k :=
    fun k => funext fun a => Fin.ext (by match a with | ⟨0, _⟩ => rfl | ⟨1, _⟩ => rfl)
  have e5 : Read.idx_main_v158 (Read.idx_main_v159 i) = ix1 (i 1) :=
    funext fun a => Fin.ext (by match a with | ⟨0, _⟩ => rfl)
  simp only [Read.val_main_v160_apply, Read.val_main_v157_apply, Read.val_main_v159_apply, Read.val_main_v158_apply,
    Read.val_main_v155_apply, Read.val_main_v154_apply, Read.val_main_v151_apply, Read.val_main_v153_apply,
    Read.val_main_v152_apply, Read.val_main_call3_v0_apply, Read.val_main_call3_cst_apply, Read.val_main_v156_apply,
    Read.val_main_v150_apply, e1, e2, e3, e4, e5, Ideal.maximumf_def, Ideal.addf_def, Ideal.ofBits_def,
    Ideal.ofBits_zero_f32]
  rfl

end Cert.ReferenceIdeal.RefValue

end
-- ==== Proof.LibPolyHead.lean ====
/-
  General facts about extended reals that are real numbers, and one identity of finite sums. Nothing here mentions a
  program.

  1. Closure: the sum, product, difference and maximum of two real numbers read in the extended reals are real, and
     so is a finite sum of them (real_add, real_mul, real_sub, real_max, real_sum).
  2. Folding coefficients into weights (head_fold). Three rows f0 f1 f2 of 64 entries are combined, for each of three
     coefficient rows s, into out_s = t s 0 · f0 + t s 1 · f1 + t s 2 · f2; the three results, laid side by side in a
     row of 192 entries, are contracted with a weight row w. The same number is obtained by first folding the
     coefficients into the weights, A k c = t 0 k · w(c) + t 1 k · w(64 + c) + t 2 k · w(128 + c), and then summing
     f_k c · A k c over c and k. This is distributivity and a reordering of finite sums; on the extended reals it
     needs every entry to be a real number (with an infinity present, (⊤ + ⊥) · w differs from ⊤ · w + ⊥ · w).
  3. The five f32 words 3, -3, 3/4, -3/2 and 0 denote real numbers.
-/
import Mathlib.Data.EReal.Operations
import Mathlib.Algebra.BigOperators.Fin
import Mathlib.Tactic.Ring
import Idealize.ShloMosaic.PureOps.Ideal
import proofs.«163378_j7138235646046_2_alg».proof.Proof.LibRowLinear

namespace Idealize.PolyHead

open Idealize.ERealSums

/-! ## Closure of the real numbers inside the extended reals -/

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨x, rfl⟩ := ha
  obtain ⟨y, rfl⟩ := hb
  exact ⟨x - y, (EReal.coe_sub x y).symm⟩

/-- The negation of a real is a real. -/
theorem real_neg {a : EReal} (ha : ∃ r : ℝ, a = (r : EReal)) : ∃ r : ℝ, -a = (r : EReal) := by
  obtain ⟨x, rfl⟩ := ha
  exact ⟨-x, (EReal.coe_neg x).symm⟩

/-- The maximum of two reals is a real: it is one of the two. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The minimum of two reals is a real: it is one of the two. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- Zero is a real. -/
theorem real_zero : ∃ r : ℝ, (0 : EReal) = (r : EReal) := ⟨0, EReal.coe_zero.symm⟩

/-- A finite sum of reals is a real. -/
theorem real_sum {ι : Type} (s : Finset ι) (g : ι → EReal) (h : ∀ i ∈ s, ∃ r : ℝ, g i = (r : EReal)) :
    ∃ r : ℝ, ∑ i ∈ s, g i = (r : EReal) := by
  classical
  revert h
  refine Finset.induction_on s (fun _ => ⟨0, by simp⟩) fun a t ha ih h => ?_
  rw [Finset.sum_insert ha]
  exact real_add (h a (Finset.mem_insert_self a t)) (ih fun i hi => h i (Finset.mem_insert_of_mem hi))

/-! ## Folding coefficients into weights -/

/-- A sum over 192 indices is the sum of its three blocks of 64. -/
theorem sum_fin192 (g : Fin 192 → EReal) :
    ∑ j : Fin 192, g j
      = ((∑ c : Fin 64, g ⟨c.val, by omega⟩) + ∑ c : Fin 64, g ⟨64 + c.val, by omega⟩)
        + ∑ c : Fin 64, g ⟨128 + c.val, by omega⟩ := by
  have e1 : ∑ j : Fin (64 + 128), g j
      = ∑ i : Fin 64, g (Fin.castAdd 128 i) + ∑ i : Fin 128, g (Fin.natAdd 64 i) := Fin.sum_univ_add (a := 64) (b := 128) g
  have e2 : ∑ i : Fin (64 + 64), g (Fin.natAdd 64 i)
      = ∑ a : Fin 64, g (Fin.natAdd 64 (Fin.castAdd 64 a)) + ∑ a : Fin 64, g (Fin.natAdd 64 (Fin.natAdd 64 a)) :=
    Fin.sum_univ_add (a := 64) (b := 64) fun i => g (Fin.natAdd 64 i)
  have e3 : ∀ a : Fin 64, g (Fin.natAdd 64 (Fin.natAdd 64 a)) = g ⟨128 + a.val, by omega⟩ := fun a =>
    congrArg g (Fin.ext (by simp only [Fin.coe_natAdd]; omega))
  calc ∑ j : Fin 192, g j
      = ∑ i : Fin 64, g (Fin.castAdd 128 i) + ∑ i : Fin 128, g (Fin.natAdd 64 i) := e1
    _ = ∑ i : Fin 64, g (Fin.castAdd 128 i)
          + (∑ a : Fin 64, g (Fin.natAdd 64 (Fin.castAdd 64 a)) + ∑ a : Fin 64, g (Fin.natAdd 64 (Fin.natAdd 64 a))) :=
        congrArg (fun z => ∑ i : Fin 64, g (Fin.castAdd 128 i) + z) e2
    _ = _ := by
        rw [← add_assoc]
        simp only [e3]
        rfl

/-- The contraction of the three combined rows, laid side by side, with a weight row equals the contraction of the
    three feature rows with the weights into which the coefficients have been folded, when every entry is real. -/
theorem head_fold (t : Fin 3 → Fin 3 → EReal) (f0 f1 f2 : Fin 64 → EReal) (w cat : Fin 192 → EReal)
    (ht : ∀ s k, ∃ r : ℝ, t s k = (r : EReal)) (h0 : ∀ c, ∃ r : ℝ, f0 c = (r : EReal))
    (h1 : ∀ c, ∃ r : ℝ, f1 c = (r : EReal)) (h2 : ∀ c, ∃ r : ℝ, f2 c = (r : EReal))
    (hw : ∀ j, ∃ r : ℝ, w j = (r : EReal))
    (hcat : ∀ (s : Fin 3) (c : Fin 64),
      cat ⟨64 * s.val + c.val, by omega⟩ = (t s 0 * f0 c + t s 1 * f1 c) + t s 2 * f2 c) :
    ∑ j : Fin 192, cat j * w j
      = ((∑ c : Fin 64, f0 c * (((0 + t 0 0 * w ⟨c.val, by omega⟩) + t 1 0 * w ⟨64 + c.val, by omega⟩) + t 2 0 * w ⟨128 + c.val, by omega⟩))
         + ∑ c : Fin 64, f1 c * (((0 + t 0 1 * w ⟨c.val, by omega⟩) + t 1 1 * w ⟨64 + c.val, by omega⟩) + t 2 1 * w ⟨128 + c.val, by omega⟩))
        + ∑ c : Fin 64, f2 c * (((0 + t 0 2 * w ⟨c.val, by omega⟩) + t 1 2 * w ⟨64 + c.val, by omega⟩) + t 2 2 * w ⟨128 + c.val, by omega⟩) := by
  choose T hT using ht
  choose F0 hF0 using h0
  choose F1 hF1 using h1
  choose F2 hF2 using h2
  choose W hW using hw
  -- the combined row at an index given as a number
  have cat_at : ∀ (s : Fin 3) (c : Fin 64) (n : ℕ) (hn : n = 64 * s.val + c.val) (hlt : n < 192),
      cat ⟨n, hlt⟩ = (t s 0 * f0 c + t s 1 * f1 c) + t s 2 * f2 c := by
    intro s c n hn hlt
    subst hn
    exact hcat s c
  have hc0 : ∀ c : Fin 64, cat ⟨c.val, by omega⟩ = (t 0 0 * f0 c + t 0 1 * f1 c) + t 0 2 * f2 c := fun c =>
    cat_at 0 c _ (by show c.val = 64 * 0 + c.val; omega) _
  have hc1 : ∀ c : Fin 64, cat ⟨64 + c.val, by omega⟩ = (t 1 0 * f0 c + t 1 1 * f1 c) + t 1 2 * f2 c := fun c =>
    cat_at 1 c _ (by show 64 + c.val = 64 * 1 + c.val; omega) _
  have hc2 : ∀ c : Fin 64, cat ⟨128 + c.val, by omega⟩ = (t 2 0 * f0 c + t 2 1 * f1 c) + t 2 2 * f2 c := fun c =>
    cat_at 2 c _ (by show 128 + c.val = 64 * 2 + c.val; omega) _
  refine (sum_fin192 _).trans ?_
  simp only [hc0, hc1, hc2]
  simp only [hT, hF0, hF1, hF2, hW]
  simp only [← EReal.coe_mul, ← EReal.coe_add, ← EReal.coe_zero, ← coe_finset_sum]
  refine congrArg _ ?_
  simp only [← Finset.sum_add_distrib]
  exact Finset.sum_congr rfl fun c _ => by ring

/-! ## Coefficient words that denote real numbers -/

section Words

open Idealize.ShloMosaic

/-- A word whose exponent field is not all ones denotes a real number: it is a zero, a subnormal or a normal, never
    an infinity or a junk value. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

/-- Any f32 word whose exponent field is not all ones denotes a real. -/
theorem theta_real (b : BitVec 32) (h : (b.extractLsb' 23 8).toNat ≠ 255) :
    ∃ r : ℝ, Ideal.ofBits .f32 b = (r : EReal) := ieee_real 8 23 b h

/-- The f32 word of 3 denotes a real. -/
theorem real_3 : ∃ r : ℝ, Ideal.ofBits .f32 0x40400000#32 = (r : EReal) := theta_real _ (by decide)

/-- The f32 word of -3 denotes a real. -/
theorem real_neg3 : ∃ r : ℝ, Ideal.ofBits .f32 0xC0400000#32 = (r : EReal) := theta_real _ (by decide)

/-- The f32 word of 3/4 denotes a real. -/
theorem real_075 : ∃ r : ℝ, Ideal.ofBits .f32 0x3F400000#32 = (r : EReal) := theta_real _ (by decide)

/-- The f32 word of -3/2 denotes a real. -/
theorem real_neg15 : ∃ r : ℝ, Ideal.ofBits .f32 0xBFC00000#32 = (r : EReal) := theta_real _ (by decide)

/-- The f32 word of 0 denotes a real. -/
theorem real_0 : ∃ r : ℝ, Ideal.ofBits .f32 0x00000000#32 = (r : EReal) := theta_real _ (by decide)

end Words

end Idealize.PolyHead
-- ==== Proof.RefOut.lean ====
/-
  The reference's output as the specification's output head. The reference joins three combined rows, each a
  combination of the three features with fixed coefficients, and contracts the joined row of 192 entries with the third
  weight matrix; folding the coefficients into that matrix's three column blocks gives three 64 × 64 matrices, and the
  same number is the sum of the three features' contractions with them. The identity is distributivity and a
  reordering of finite sums, valid when the features and the weights are real numbers.
-/
import proofs.«163378_j7138235646046_2_alg».proof.Proof.RefValue
import proofs.«163378_j7138235646046_2_alg».proof.Proof.LibPolyHead
import proofs.«163378_j7138235646046_2_alg».proof.Proof.Spec

noncomputable section

namespace Cert.ReferenceIdeal.RefOut

open Cert.ReferenceIdeal Idealize.ShloMosaic Idealize.ShloMosaic.ValueIdx Idealize.PolyHead

/-- The coefficient of feature k in combined row s: rows (3, -3, 3/4), (0, 3, -3/2), (0, 0, 3/4), as f32 words. -/
def coef : Fin 3 → Fin 3 → EReal :=
  ![![Ideal.ofBits .f32 0x40400000#32, Ideal.ofBits .f32 0xC0400000#32, Ideal.ofBits .f32 0x3F400000#32],
    ![Ideal.ofBits .f32 0x00000000#32, Ideal.ofBits .f32 0x40400000#32, Ideal.ofBits .f32 0xBFC00000#32],
    ![Ideal.ofBits .f32 0x00000000#32, Ideal.ofBits .f32 0x00000000#32, Ideal.ofBits .f32 0x3F400000#32]]

/-- Every coefficient is a real number. -/
theorem coef_real : ∀ s k : Fin 3, ∃ r : ℝ, coef s k = (r : EReal) := by
  intro s k
  fin_cases s <;> fin_cases k <;>
    first | exact real_3 | exact real_neg3 | exact real_075 | exact real_neg15 | exact real_0

variable (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x192, .f32⟩ : BufTy).Contents (Elt Ideal)) (x7 : (⟨S64, .f32⟩ : BufTy).Contents (Elt Ideal))
  (x8 : (⟨S2x64, .f32⟩ : BufTy).Contents (Elt Ideal)) (x9 : (⟨S2, .f32⟩ : BufTy).Contents (Elt Ideal))

/-- The reference's output is the output head of the specification over the three features (the input layers' result
    and its first and second differences) and the weights into which the coefficients are folded, when the features
    and the third weight matrix hold real numbers. -/
theorem ref_out
    (hf0 : ∀ j, ∃ r : ℝ, Read.val_main_v40 (F := Ideal) x0 x2 x3 x4 x5 j = (r : EReal))
    (hf1 : ∀ j, ∃ r : ℝ, Read.val_main_v56 (F := Ideal) x0 x1 x2 x3 x4 x5 j = (r : EReal))
    (hf2 : ∀ j, ∃ r : ℝ, Read.val_main_v73 (F := Ideal) x0 x1 x2 x3 x4 x5 j = (r : EReal))
    (hW3 : ∀ j, ∃ r : ℝ, x6 j = (r : EReal)) :
    Read.val_main_v160 (F := Ideal) x0 x1 x2 x3 x4 x5 x6 x7 x8 x9
      = Cert.Spec.headOf (Read.val_main_v40 (F := Ideal) x0 x2 x3 x4 x5) (Read.val_main_v56 (F := Ideal) x0 x1 x2 x3 x4 x5) (Read.val_main_v73 (F := Ideal) x0 x1 x2 x3 x4 x5)
          (Cert.Spec.foldW (Ideal.ofBits .f32 0x40400000#32) (Ideal.ofBits .f32 0x00000000#32) (Ideal.ofBits .f32 0x00000000#32) x6)
          (Cert.Spec.foldW (Ideal.ofBits .f32 0xC0400000#32) (Ideal.ofBits .f32 0x40400000#32) (Ideal.ofBits .f32 0x00000000#32) x6)
          (Cert.Spec.foldW (Ideal.ofBits .f32 0x3F400000#32) (Ideal.ofBits .f32 0xBFC00000#32) (Ideal.ofBits .f32 0x3F400000#32) x6)
          x7 x8 x9 := by
  funext i
  rw [RefValue.ref_head]
  unfold Cert.Spec.headOf Cert.Spec.headHidden
  refine congrArg (· + x9 (ix1 (i 1))) (Finset.sum_congr rfl fun k _ => ?_)
  refine congrArg (fun z => max (z + x7 (ix1 k)) 0 * x8 (ix2 (i 1) k)) ?_
  have hcat : ∀ (s : Fin 3) (c : Fin 64),
      Read.val_main_v149 (F := Ideal) x0 x1 x2 x3 x4 x5 (ix2 (i 0) (⟨64 * s.val + c.val, by omega⟩ : Fin 192))
        = (coef s 0 * Read.val_main_v40 (F := Ideal) x0 x2 x3 x4 x5 (ix2 (i 0) c) + coef s 1 * Read.val_main_v56 (F := Ideal) x0 x1 x2 x3 x4 x5 (ix2 (i 0) c))
          + coef s 2 * Read.val_main_v73 (F := Ideal) x0 x1 x2 x3 x4 x5 (ix2 (i 0) c) := by
    intro s c
    match s with
    | ⟨0, _⟩ =>
      have e : (⟨64 * 0 + c.val, by omega⟩ : Fin 192) = ⟨c.val, by omega⟩ := Fin.ext (by simp)
      show Read.val_main_v149 (F := Ideal) x0 x1 x2 x3 x4 x5 (ix2 (i 0) (⟨64 * 0 + c.val, by omega⟩ : Fin 192)) = _
      rw [e]
      refine (RefValue.cat_apply_0 x0 x1 x2 x3 x4 x5 (i 0) c).trans ?_
      refine (RefValue.comb_76 x0 x1 x2 x3 x4 x5 (ix2 (i 0) c)).trans ?_
      rfl
    | ⟨1, _⟩ =>
      have e : (⟨64 * 1 + c.val, by omega⟩ : Fin 192) = ⟨64 + c.val, by omega⟩ := Fin.ext (by simp)
      show Read.val_main_v149 (F := Ideal) x0 x1 x2 x3 x4 x5 (ix2 (i 0) (⟨64 * 1 + c.val, by omega⟩ : Fin 192)) = _
      rw [e]
      refine (RefValue.cat_apply_1 x0 x1 x2 x3 x4 x5 (i 0) c).trans ?_
      refine (RefValue.comb_112 x0 x1 x2 x3 x4 x5 (ix2 (i 0) c)).trans ?_
      rw [RefValue.v92_eq, RefValue.v109_eq]
      rfl
    | ⟨2, _⟩ =>
      have e : (⟨64 * 2 + c.val, by omega⟩ : Fin 192) = ⟨128 + c.val, by omega⟩ := Fin.ext (by simp)
      show Read.val_main_v149 (F := Ideal) x0 x1 x2 x3 x4 x5 (ix2 (i 0) (⟨64 * 2 + c.val, by omega⟩ : Fin 192)) = _
      rw [e]
      refine (RefValue.cat_apply_2 x0 x1 x2 x3 x4 x5 (i 0) c).trans ?_
      refine (RefValue.comb_148 x0 x1 x2 x3 x4 x5 (ix2 (i 0) c)).trans ?_
      rw [RefValue.v128_eq, RefValue.v145_eq]
      rfl
  exact head_fold coef (fun c => Read.val_main_v40 (F := Ideal) x0 x2 x3 x4 x5 (ix2 (i 0) c)) (fun c => Read.val_main_v56 (F := Ideal) x0 x1 x2 x3 x4 x5 (ix2 (i 0) c))
    (fun c => Read.val_main_v73 (F := Ideal) x0 x1 x2 x3 x4 x5 (ix2 (i 0) c)) (fun j => x6 (ix2 k j))
    (fun j => Read.val_main_v149 (F := Ideal) x0 x1 x2 x3 x4 x5 (ix2 (i 0) j))
    coef_real (fun c => hf0 _) (fun c => hf1 _) (fun c => hf2 _) (fun j => hW3 _) hcat

end Cert.ReferenceIdeal.RefOut

end
-- ==== Proof.SpecReal.lean ====
/-
  The two input layers of the specification take real numbers to real numbers: a dense layer with its rectifier is a
  maximum, with zero, of a finite sum of products plus a bias, and each of these operations keeps the real numbers
  inside the extended reals.
-/
import proofs.«163378_j7138235646046_2_alg».proof.Proof.Spec
import proofs.«163378_j7138235646046_2_alg».proof.Proof.LibPolyHead

noncomputable section

namespace Cert.Spec

open Idealize.ShloMosaic Idealize.ShloMosaic.ValueIdx Idealize.PolyHead

/-- A dense layer with its rectifier, on real inputs, weights and biases, has real entries. -/
theorem dense_real {M K N : Nat} (x : (⟨2, ![M, K]⟩ : Shape).Idx → EReal) (w : (⟨2, ![N, K]⟩ : Shape).Idx → EReal)
    (b : (⟨1, ![N]⟩ : Shape).Idx → EReal) (hx : ∀ i, ∃ r : ℝ, x i = (r : EReal))
    (hw : ∀ i, ∃ r : ℝ, w i = (r : EReal)) (hb : ∀ i, ∃ r : ℝ, b i = (r : EReal)) :
    ∀ i, ∃ r : ℝ, dense x w b i = (r : EReal) := by
  intro i
  unfold dense
  exact real_max (real_add (real_sum _ _ fun j _ => real_mul (hx _) (hw _)) (hb _)) real_zero

/-- The two input layers, on real inputs, weights and biases, have real entries. -/
theorem mlp_real (X : (⟨2, ![100000, 128]⟩ : Shape).Idx → EReal) (W1 : (⟨2, ![64, 128]⟩ : Shape).Idx → EReal)
    (b1 : (⟨1, ![64]⟩ : Shape).Idx → EReal) (W2 : (⟨2, ![64, 64]⟩ : Shape).Idx → EReal)
    (b2 : (⟨1, ![64]⟩ : Shape).Idx → EReal) (hX : ∀ i, ∃ r : ℝ, X i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    ∀ i, ∃ r : ℝ, mlp X W1 b1 W2 b2 i = (r : EReal) := by
  unfold mlp
  exact dense_real _ _ _ (dense_real _ _ _ hX hW1 hb1) hW2 hb2

end Cert.Spec

end
-- ==== Proof.Finite.lean ====
/-
  From the precondition to "every entry is a real". The precondition is the conjunction, over the nine float
  arrays, of "all entries x satisfy |x| < +∞" (a reduction by "and" of the elementwise comparison). At the ideal
  instance an entry is an extended real, |x| is max x (-x), and the bound is ⊤; so |x| < ⊤ excludes x = ⊤ and
  x = ⊥, and x is the image of a real number.
-/
import proofs.«163378_j7138235646046_2_alg».proof.Defs
import proofs.«163378_j7138235646046_2_alg».proof.Proof.Gen.KernelIdeal
import proofs.«163378_j7138235646046_2_alg».proof.Proof.Gen.Pre_finite_inputs
import Idealize.ShloMosaic.Lib.ReduceAll
import Idealize.ShloMosaic.Lib.ValueIdx

noncomputable section

namespace Cert.Proof.Finite

open Idealize.ShloMosaic Idealize.SL.Sem

/-- The rank-0 shape has one index. -/
instance : Subsingleton Cert.Pre_finite_inputs.S_.Idx := ⟨fun a b => funext fun d => d.elim0⟩

/-- The f32 pattern 0x7F800000 denotes +∞. -/
theorem inf_eq_top : Ideal.ofBits .f32 0x7F800000#32 = (⊤ : EReal) := by simp [Ideal.ofBits, Ideal.ieee]

/-- An extended real x with max x (-x) < +∞ is a real. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- One array: if the reduction by "and" of |x| < +∞ over all entries is 1, every entry of x is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i : s.Idx, ∃ r : ℝ, x i = (r : EReal) := by
  intro i
  have h1 := Host.reduce_andi_all _ _ hr hu _ e i
  exact real_of_abs_lt (x i) h1

variable (m : (ℓ : Loc Cert.KernelIdeal.nD Cert.KernelIdeal.τ Cert.KernelIdeal.sig) → Buf (Elt Ideal) ℓ)

/-- The precondition decoded: each of the nine float arrays holds reals only. -/
theorem decode (h : Cert.Pre_KernelIdeal m) (c : Dev Cert.KernelIdeal.nD) :
    (∀ i : Cert.KernelIdeal.S100000x128.Idx, ∃ r : ℝ, ((m ((c.tc : Thread Cert.KernelIdeal.nD Cert.KernelIdeal.τ).loc Cert.KernelIdeal.main_arg0)) : FVec Ideal Cert.KernelIdeal.S100000x128 .f32) i = (r : EReal))
    ∧ (∀ i : Cert.KernelIdeal.S64x128.Idx, ∃ r : ℝ, ((m ((c.tc : Thread Cert.KernelIdeal.nD Cert.KernelIdeal.τ).loc Cert.KernelIdeal.main_arg2)) : FVec Ideal Cert.KernelIdeal.S64x128 .f32) i = (r : EReal))
    ∧ (∀ i : Cert.KernelIdeal.S64.Idx, ∃ r : ℝ, ((m ((c.tc : Thread Cert.KernelIdeal.nD Cert.KernelIdeal.τ).loc Cert.KernelIdeal.main_arg3)) : FVec Ideal Cert.KernelIdeal.S64 .f32) i = (r : EReal))
    ∧ (∀ i : Cert.KernelIdeal.S64x64.Idx, ∃ r : ℝ, ((m ((c.tc : Thread Cert.KernelIdeal.nD Cert.KernelIdeal.τ).loc Cert.KernelIdeal.main_arg4)) : FVec Ideal Cert.KernelIdeal.S64x64 .f32) i = (r : EReal))
    ∧ (∀ i : Cert.KernelIdeal.S64.Idx, ∃ r : ℝ, ((m ((c.tc : Thread Cert.KernelIdeal.nD Cert.KernelIdeal.τ).loc Cert.KernelIdeal.main_arg5)) : FVec Ideal Cert.KernelIdeal.S64 .f32) i = (r : EReal))
    ∧ (∀ i : Cert.KernelIdeal.S64x192.Idx, ∃ r : ℝ, ((m ((c.tc : Thread Cert.KernelIdeal.nD Cert.KernelIdeal.τ).loc Cert.KernelIdeal.main_arg6)) : FVec Ideal Cert.KernelIdeal.S64x192 .f32) i = (r : EReal))
    ∧ (∀ i : Cert.KernelIdeal.S64.Idx, ∃ r : ℝ, ((m ((c.tc : Thread Cert.KernelIdeal.nD Cert.KernelIdeal.τ).loc Cert.KernelIdeal.main_arg7)) : FVec Ideal Cert.KernelIdeal.S64 .f32) i = (r : EReal))
    ∧ (∀ i : Cert.KernelIdeal.S2x64.Idx, ∃ r : ℝ, ((m ((c.tc : Thread Cert.KernelIdeal.nD Cert.KernelIdeal.τ).loc Cert.KernelIdeal.main_arg8)) : FVec Ideal Cert.KernelIdeal.S2x64 .f32) i = (r : EReal))
    ∧ (∀ i : Cert.KernelIdeal.S2.Idx, ∃ r : ℝ, ((m ((c.tc : Thread Cert.KernelIdeal.nD Cert.KernelIdeal.τ).loc Cert.KernelIdeal.main_arg9)) : FVec Ideal Cert.KernelIdeal.S2 .f32) i = (r : EReal)) := by
  have e := congrFun (h c) ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨e0, e2⟩, e3⟩, e4⟩, e5⟩, e6⟩, e7⟩, e8⟩, e9⟩ := e
  exact ⟨all_real _ _ _ _ e0, all_real _ _ _ _ e2, all_real _ _ _ _ e3, all_real _ _ _ _ e4, all_real _ _ _ _ e5,
    all_real _ _ _ _ e6, all_real _ _ _ _ e7, all_real _ _ _ _ e8, all_real _ _ _ _ e9⟩

/-- Every entry of argument 0 is a real. -/
theorem real_arg0 (h : Cert.Pre_KernelIdeal m) (c : Dev Cert.KernelIdeal.nD) :
    ∀ i : Cert.KernelIdeal.S100000x128.Idx, ∃ r : ℝ, ((m ((c.tc : Thread Cert.KernelIdeal.nD Cert.KernelIdeal.τ).loc Cert.KernelIdeal.main_arg0)) : FVec Ideal Cert.KernelIdeal.S100000x128 .f32) i = (r : EReal) :=
  (decode m h c).1

/-- Every entry of argument 2 is a real. -/
theorem real_arg2 (h : Cert.Pre_KernelIdeal m) (c : Dev Cert.KernelIdeal.nD) :
    ∀ i : Cert.KernelIdeal.S64x128.Idx, ∃ r : ℝ, ((m ((c.tc : Thread Cert.KernelIdeal.nD Cert.KernelIdeal.τ).loc Cert.KernelIdeal.main_arg2)) : FVec Ideal Cert.KernelIdeal.S64x128 .f32) i = (r : EReal) :=
  (decode m h c).2.1

/-- Every entry of argument 3 is a real. -/
theorem real_arg3 (h : Cert.Pre_KernelIdeal m) (c : Dev Cert.KernelIdeal.nD) :
    ∀ i : Cert.KernelIdeal.S64.Idx, ∃ r : ℝ, ((m ((c.tc : Thread Cert.KernelIdeal.nD Cert.KernelIdeal.τ).loc Cert.KernelIdeal.main_arg3)) : FVec Ideal Cert.KernelIdeal.S64 .f32) i = (r : EReal) :=
  (decode m h c).2.2.1

/-- Every entry of argument 4 is a real. -/
theorem real_arg4 (h : Cert.Pre_KernelIdeal m) (c : Dev Cert.KernelIdeal.nD) :
    ∀ i : Cert.KernelIdeal.S64x64.Idx, ∃ r : ℝ, ((m ((c.tc : Thread Cert.KernelIdeal.nD Cert.KernelIdeal.τ).loc Cert.KernelIdeal.main_arg4)) : FVec Ideal Cert.KernelIdeal.S64x64 .f32) i = (r : EReal) :=
  (decode m h c).2.2.2.1

/-- Every entry of argument 5 is a real. -/
theorem real_arg5 (h : Cert.Pre_KernelIdeal m) (c : Dev Cert.KernelIdeal.nD) :
    ∀ i : Cert.KernelIdeal.S64.Idx, ∃ r : ℝ, ((m ((c.tc : Thread Cert.KernelIdeal.nD Cert.KernelIdeal.τ).loc Cert.KernelIdeal.main_arg5)) : FVec Ideal Cert.KernelIdeal.S64 .f32) i = (r : EReal) :=
  (decode m h c).2.2.2.2.1

/-- Every entry of argument 6 is a real. -/
theorem real_arg6 (h : Cert.Pre_KernelIdeal m) (c : Dev Cert.KernelIdeal.nD) :
    ∀ i : Cert.KernelIdeal.S64x192.Idx, ∃ r : ℝ, ((m ((c.tc : Thread Cert.KernelIdeal.nD Cert.KernelIdeal.τ).loc Cert.KernelIdeal.main_arg6)) : FVec Ideal Cert.KernelIdeal.S64x192 .f32) i = (r : EReal) :=
  (decode m h c).2.2.2.2.2.1

/-- Every entry of argument 7 is a real. -/
theorem real_arg7 (h : Cert.Pre_KernelIdeal m) (c : Dev Cert.KernelIdeal.nD) :
    ∀ i : Cert.KernelIdeal.S64.Idx, ∃ r : ℝ, ((m ((c.tc : Thread Cert.KernelIdeal.nD Cert.KernelIdeal.τ).loc Cert.KernelIdeal.main_arg7)) : FVec Ideal Cert.KernelIdeal.S64 .f32) i = (r : EReal) :=
  (decode m h c).2.2.2.2.2.2.1

/-- Every entry of argument 8 is a real. -/
theorem real_arg8 (h : Cert.Pre_KernelIdeal m) (c : Dev Cert.KernelIdeal.nD) :
    ∀ i : Cert.KernelIdeal.S2x64.Idx, ∃ r : ℝ, ((m ((c.tc : Thread Cert.KernelIdeal.nD Cert.KernelIdeal.τ).loc Cert.KernelIdeal.main_arg8)) : FVec Ideal Cert.KernelIdeal.S2x64 .f32) i = (r : EReal) :=
  (decode m h c).2.2.2.2.2.2.2.1

/-- Every entry of argument 9 is a real. -/
theorem real_arg9 (h : Cert.Pre_KernelIdeal m) (c : Dev Cert.KernelIdeal.nD) :
    ∀ i : Cert.KernelIdeal.S2.Idx, ∃ r : ℝ, ((m ((c.tc : Thread Cert.KernelIdeal.nD Cert.KernelIdeal.τ).loc Cert.KernelIdeal.main_arg9)) : FVec Ideal Cert.KernelIdeal.S2 .f32) i = (r : EReal) :=
  (decode m h c).2.2.2.2.2.2.2.2

end Cert.Proof.Finite

end
-- ==== Proof.Bridge.lean ====
/-
  THE KERNEL'S RESULT IS THE REFERENCE'S.

  With every float argument finite, both programs compute, at every node `n` and class `o`,
  `∑ k, max (head n k) 0 · W4 (o, k) + b4 o`, where `head` contracts three feature arrays with the head's weight:
  `f0` the two input layers of the node features, `f1 = L f0`, `f2 = L f1`, `L` the normalised graph Laplacian step.
  The reference scales each edge's gathered row by the product of the two end nodes' weights before summing by the edge's
  first node; the kernel scales the rows by the node weight before the gather and again after the sum — equal because an
  edge summed into node `n` has first node `n` and a real factor distributes over a finite sum of reals. The reference
  combines the features with the three coefficient rows, concatenates and contracts with the head's weight; the kernel
  folds the coefficients into three weight blocks first — equal by distributivity and reordering of finite sums of reals.
  Every entry involved is a real number because the arguments are finite and the node weights are real for every count.
-/
import proofs.«163378_j7138235646046_2_alg».proof.Proof.KVal1
import proofs.«163378_j7138235646046_2_alg».proof.Proof.KernelSpec
import proofs.«163378_j7138235646046_2_alg».proof.Proof.LapBridge
import proofs.«163378_j7138235646046_2_alg».proof.Proof.RefOut
import proofs.«163378_j7138235646046_2_alg».proof.Proof.SpecReal
import proofs.«163378_j7138235646046_2_alg».proof.Proof.Finite

noncomputable section

namespace Cert.Proof.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)

/-- Under the precondition, the contents of the kernel's result buffer at the return are the reference's result term of the
    same argument arrays. -/
theorem kernel_out (h : Cert.Pre_KernelIdeal m) (c : Dev Cert.KernelIdeal.nD) :
    Cert.KernelIdeal.Gen.W6 m ρ c (Proc.devRef .tc Cert.KernelIdeal.main_v98)
      = Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  have r0 := Cert.Proof.Finite.real_arg0 m h c
  have r2 := Cert.Proof.Finite.real_arg2 m h c
  have r3 := Cert.Proof.Finite.real_arg3 m h c
  have r4 := Cert.Proof.Finite.real_arg4 m h c
  have r5 := Cert.Proof.Finite.real_arg5 m h c
  have r6 := Cert.Proof.Finite.real_arg6 m h c
  have hmlp := Cert.Spec.mlp_real _ _ _ _ _ r0 r2 r3 r4 r5
  have e40 := Cert.ReferenceIdeal.RefValue.ref_mlp (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
  have hf0 : ∀ i, ∃ r : ℝ, Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) i = (r : EReal) := by
    rw [e40]; exact hmlp
  have hd : ∀ i, ∃ r : ℝ, Cert.KernelIdeal.HostRun.dinvK (m ((c.tc : Thread Cert.KernelIdeal.nD Cert.KernelIdeal.τ).loc Cert.KernelIdeal.main_arg1)) i = (r : EReal) :=
    fun i => Cert.LapBridge.dinvK_real _ i
  have e56 := Cert.LapBridge.lap_ref1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) hf0
  have hf1 : ∀ i, ∃ r : ℝ, Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) i = (r : EReal) := by
    rw [e56]; exact fun i => Cert.LapBridge.lapK_real _ _ _ _ hd hf0 i
  have e73 := Cert.LapBridge.lap_ref2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) hf1
  have hf2 : ∀ i, ∃ r : ℝ, Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) i = (r : EReal) := by
    rw [e73]; exact fun i => Cert.LapBridge.lapK_real _ _ _ _ hd hf1 i
  rw [Cert.ReferenceIdeal.RefOut.ref_out _ _ _ _ _ _ _ _ _ _ hf0 hf1 hf2 r6, e73, e56, e40,
    Cert.KernelIdeal.HostRun.out_eq, Cert.KernelIdeal.KernelSpec.G1_eq_head]
  have eh : Cert.KernelIdeal.HostRun.h0K m c
      = Cert.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    Cert.KernelIdeal.KernelSpec.G0_eq_mlp _ _ _ _ _
  rw [eh]

end Cert.Proof.Bridge

end
-- ==== Proof.lean ====
/-
  The certificate of a graph network's forward pass (two dense input layers, two steps of the normalised graph Laplacian,
  a polynomial combination of the three feature arrays, a dense head) computed by a kernel of two grid regions among host
  operations, against its plain reference, on the extended reals.

  FRAMES. The kernel's two programs (the word-level one and its idealization) run, fault-free, with their argument arrays
  unchanged: the generated frame of a program of two regions, each region's body loading, computing and storing through
  whole-block rectangles. The reference is a host program: its run, read back, gives the same.

  THE IDEALIZATION rewrites nothing, so there is nothing to preserve.

  THE VALUE. Under the precondition (every float argument finite) both programs end with the same result array:
  the kernel's result is what its second region's write-backs leave, a function of the arrays the host operations
  prepared (Region0, Region1, KVal0, KVal1, KernelRun); the reference's is its run's composed term (RefRunP, RefReadP,
  RefValue, RefOut); the two are one function of the arguments (Bridge: the Laplacian step with the node weights
  inside or outside the segment sum, the coefficients folded into the weights or applied to the features).
-/
import proofs.«163378_j7138235646046_2_alg».proof.Defs
import proofs.«163378_j7138235646046_2_alg».proof.Proof.Gen.Kernel
import proofs.«163378_j7138235646046_2_alg».proof.Proof.Gen.Kernel.Skeleton
import proofs.«163378_j7138235646046_2_alg».proof.Proof.Gen.Kernel.Launch
import proofs.«163378_j7138235646046_2_alg».proof.Proof.Gen.Kernel.Points
import proofs.«163378_j7138235646046_2_alg».proof.Proof.Gen.Kernel.Frame
import proofs.«163378_j7138235646046_2_alg».proof.Proof.Gen.KernelIdeal
import proofs.«163378_j7138235646046_2_alg».proof.Proof.Gen.KernelIdeal.Skeleton
import proofs.«163378_j7138235646046_2_alg».proof.Proof.Gen.KernelIdeal.Launch
import proofs.«163378_j7138235646046_2_alg».proof.Proof.Gen.KernelIdeal.Points
import proofs.«163378_j7138235646046_2_alg».proof.Proof.Gen.KernelIdeal.Frame
import proofs.«163378_j7138235646046_2_alg».proof.Proof.Gen.ReferenceIdeal
import proofs.«163378_j7138235646046_2_alg».proof.Proof.Gen.Pre_finite_inputs
import proofs.«163378_j7138235646046_2_alg».proof.Proof.RefRunP
import proofs.«163378_j7138235646046_2_alg».proof.Proof.RefReadP
import proofs.«163378_j7138235646046_2_alg».proof.Proof.KernelRun
import proofs.«163378_j7138235646046_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the same result array: the kernel's
    run names its result buffer's contents, the reference's run its composed term, and the bridge equates the two. -/
theorem algebraic : Cert.algebraic_KernelIdeal_ReferenceIdeal := by
  intro m ρ m' ρ' hpre hagree
  refine ⟨fun c => Cert.KernelIdeal.Gen.W6 m ρ c (Proc.devRef .tc Cert.KernelIdeal.main_v98),
    Cert.KernelIdeal.RunValue.run_out m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v160_eq, a0, a1, a2, a3, a4, a5, a6, a7, a8, a9]
  exact (Cert.Proof.Bridge.kernel_out m ρ hpre c).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
